-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16x128 : Shape := ⟨3, ![50000, 16, 128]⟩
abbrev S4x128x128 : Shape := ⟨3, ![4, 128, 128]⟩
abbrev S4 : Shape := ⟨1, ![4]⟩
abbrev S_ : Shape := ⟨0, ![]⟩

class Facts : Prop where
  bcast_S_S50000x16x128 : S_.BroadcastsInDim S50000x16x128 (![] : Fin 0 → Fin S50000x16x128.rank)
  reducesTo_S50000x16x128_S_d0_1_2 : S50000x16x128.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S50000x16x128 .f32) (main_arg1 : FVec F S4x128x128 .f32) (main_arg2 : FVec F S4 .f32) : IVec S_ 1 :=
  let main_v0 : FVec F S50000x16x128 .f32 := Host.absf main_arg0
  let main_cst : FVec F S_ .f32 := constant S_ .f32 0x7F800000#32
  let main_v1 : FVec F S50000x16x128 .f32 := broadcastInDim S50000x16x128 ![] bcast_S_S50000x16x128 main_cst
  let main_v2 : IVec S50000x16x128 1 := cmpf .olt main_v0 main_v1
  let main_c : IVec S_ 1 := constantI S_ 1 1#1
  let main_v3 : IVec S_ 1 := (fun x v => Host.reduce IntOp.andi x v reducesTo_S50000x16x128_S_d0_1_2 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S50000x16x128 : Shape := ⟨3, ![50000, 16, 128]⟩
abbrev S4x128x128 : Shape := ⟨3, ![4, 128, 128]⟩
abbrev S4 : Shape := ⟨1, ![4]⟩
abbrev S4x1x1 : Shape := ⟨3, ![4, 1, 1]⟩
abbrev S1024x16x128 : Shape := ⟨3, ![1024, 16, 128]⟩
abbrev S1024x1x128 : Shape := ⟨3, ![1024, 1, 128]⟩
abbrev S1024x128 : Shape := ⟨2, ![1024, 128]⟩
abbrev S1x128x128 : Shape := ⟨3, ![1, 128, 128]⟩
abbrev S128x128 : Shape := ⟨2, ![128, 128]⟩
abbrev S1024x3x128 : Shape := ⟨3, ![1024, 3, 128]⟩
abbrev S3072x128 : Shape := ⟨2, ![3072, 128]⟩
abbrev S1024x5x128 : Shape := ⟨3, ![1024, 5, 128]⟩
abbrev S5120x128 : Shape := ⟨2, ![5120, 128]⟩
abbrev S1024x7x128 : Shape := ⟨3, ![1024, 7, 128]⟩
abbrev S7168x128 : Shape := ⟨2, ![7168, 128]⟩

abbrev nBuf : Space → Nat
  | .hbm => 8
  | .vmem => 5
  | .smem => 0
  | _ => 0

abbrev bufTy : (tb : Table) → Fin (tcTables nBuf tb) → BufTy
  | .hbm, ⟨0, _⟩ => ⟨S50000x16x128, .f32⟩
  | .hbm, ⟨1, _⟩ => ⟨S4x128x128, .f32⟩
  | .hbm, ⟨2, _⟩ => ⟨S4, .f32⟩
  | .hbm, ⟨3, _⟩ => ⟨S4x1x1, .f32⟩
  | .hbm, ⟨4, _⟩ => ⟨S4x128x128, .f32⟩
  | .hbm, ⟨5, _⟩ => ⟨S4x128x128, .f32⟩
  | .hbm, ⟨6, _⟩ => ⟨S4x128x128, .bf16⟩
  | .hbm, ⟨7, _⟩ => ⟨S50000x16x128, .f32⟩
  | .local _ .vmem, ⟨0, _⟩ => ⟨S1024x16x128, .f32⟩
  | .local _ .vmem, ⟨1, _⟩ => ⟨S1024x16x128, .f32⟩
  | .local _ .vmem, ⟨2, _⟩ => ⟨S4x128x128, .bf16⟩
  | .local _ .vmem, ⟨3, _⟩ => ⟨S1024x16x128, .f32⟩
  | .local _ .vmem, ⟨4, _⟩ => ⟨S1024x16x128, .f32⟩
  | _, _ => ⟨S50000x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4_S4x1x1_0 : S4.BroadcastsInDim S4x1x1 (![0] : Fin 1 → Fin S4x1x1.rank)
  bcast_S4x1x1_S4x128x128_0_1_2 : S4x1x1.BroadcastsInDim S4x128x128 (![0, 1, 2] : Fin 3 → Fin S4x128x128.rank)
  bitsLt_bf16_f32 : FTy.bits .bf16 < FTy.bits .f32
  inb_S1024x16x128_S1024x1x128_0_0_0 : ∀ a, (![0, 0, 0] : Fin 3 → Nat) a + S1024x1x128.size a ≤ S1024x16x128.size a
  h_S1024x1x128 : 0 < S1024x1x128.numel
  shapeCasts_S1024x1x128_S1024x128 : S1024x1x128.ShapeCasts S1024x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  shapeCasts_S1024x128_S1024x1x128 : S1024x128.ShapeCasts S1024x1x128
  inb_S1024x16x128_S1024x3x128_0_1_0 : ∀ a, (![0, 1, 0] : Fin 3 → Nat) a + S1024x3x128.size a ≤ S1024x16x128.size a
  h_S1024x3x128 : 0 < S1024x3x128.numel
  shapeCasts_S1024x3x128_S3072x128 : S1024x3x128.ShapeCasts S3072x128
  inb_S4x128x128_S1x128x128_1_0_0 : ∀ a, (![1, 0, 0] : Fin 3 → Nat) a + S1x128x128.size a ≤ S4x128x128.size a
  shapeCasts_S3072x128_S1024x3x128 : S3072x128.ShapeCasts S1024x3x128
  inb_S1024x16x128_S1024x5x128_0_4_0 : ∀ a, (![0, 4, 0] : Fin 3 → Nat) a + S1024x5x128.size a ≤ S1024x16x128.size a
  h_S1024x5x128 : 0 < S1024x5x128.numel
  shapeCasts_S1024x5x128_S5120x128 : S1024x5x128.ShapeCasts S5120x128
  inb_S4x128x128_S1x128x128_2_0_0 : ∀ a, (![2, 0, 0] : Fin 3 → Nat) a + S1x128x128.size a ≤ S4x128x128.size a
  shapeCasts_S5120x128_S1024x5x128 : S5120x128.ShapeCasts S1024x5x128
  inb_S1024x16x128_S1024x7x128_0_9_0 : ∀ a, (![0, 9, 0] : Fin 3 → Nat) a + S1024x7x128.size a ≤ S1024x16x128.size a
  h_S1024x7x128 : 0 < S1024x7x128.numel
  shapeCasts_S1024x7x128_S7168x128 : S1024x7x128.ShapeCasts S7168x128
  inb_S4x128x128_S1x128x128_3_0_0 : ∀ a, (![3, 0, 0] : Fin 3 → Nat) a + S1x128x128.size a ≤ S4x128x128.size a
  shapeCasts_S7168x128_S1024x7x128 : S7168x128.ShapeCasts S1024x7x128
  dot_S1024x128_S128x128_S1024x128_1_0_0_1_n_n_wf : DotDims.WF S1024x128 S128x128 S1024x128 [1] [0] [0] [1] [] []
  dot_S3072x128_S128x128_S3072x128_1_0_0_1_n_n_wf : DotDims.WF S3072x128 S128x128 S3072x128 [1] [0] [0] [1] [] []
  dot_S5120x128_S128x128_S5120x128_1_0_0_1_n_n_wf : DotDims.WF S5120x128 S128x128 S5120x128 [1] [0] [0] [1] [] []
  dot_S7168x128_S128x128_S7168x128_1_0_0_1_n_n_wf : DotDims.WF S7168x128 S128x128 S7168x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x16x128.size a < S50000x16x128.size a
  hwx0_0 : ∀ i : grid0.Coords, EltTy.bits .f32 = 32 ∨ (Rect.unit (s := S50000x16x128) (fun a => cc0_transform_0 i a * S1024x16x128.size a) (fun a => (Pipeline.Clip.of (cc0_transform_0 i a) (S1024x16x128.size a) (S50000x16x128.size a)).extent (S1024x16x128.size a)) fun a => Pipeline.Clip.inb (Pipeline.Clip.ok_of (hstart0_0 i a))).WholeWords (EltTy.packing .f32)
  hwxs0_0 : ∀ i : grid0.Coords, EltTy.bits .f32 = 32 ∨ (Rect.unit (s := S1024x16x128) (fun _ => 0) (fun a => (Pipeline.Clip.of (cc0_transform_0 i a) (S1024x16x128.size a) (S50000x16x128.size a)).extent (S1024x16x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x128x128.size a
  hwx0_1 : ∀ i : grid0.Coords, EltTy.bits .bf16 = 32 ∨ (Rect.block (s := S4x128x128) S4x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x16x128.size a < S50000x16x128.size a
  hwx0_2 : ∀ i : grid0.Coords, EltTy.bits .f32 = 32 ∨ (Rect.unit (s := S50000x16x128) (fun a => cc0_transform_2 i a * S1024x16x128.size a) (fun a => (Pipeline.Clip.of (cc0_transform_2 i a) (S1024x16x128.size a) (S50000x16x128.size a)).extent (S1024x16x128.size a)) fun a => Pipeline.Clip.inb (Pipeline.Clip.ok_of (hstart0_2 i a))).WholeWords (EltTy.packing .f32)
  hwxs0_2 : ∀ i : grid0.Coords, EltTy.bits .f32 = 32 ∨ (Rect.unit (s := S1024x16x128) (fun _ => 0) (fun a => (Pipeline.Clip.of (cc0_transform_2 i a) (S1024x16x128.size a) (S50000x16x128.size a)).extent (S1024x16x128.size a)) fun a => (Nat.zero_add _).trans_le (Pipeline.Clip.extent_le (Pipeline.Clip.ok_of (hstart0_2 i a)))).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S3072x128_S128x128_S3072x128_1_0_0_1_n_n : DotDims S3072x128 S128x128 S3072x128 where
  lhsContracting := [1]
  rhsContracting := [0]
  lhsNonContracting := [0]
  rhsNonContracting := [1]
  lhsBatch := []
  rhsBatch := []
  wf := dot_S3072x128_S128x128_S3072x128_1_0_0_1_n_n_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S7168x128_S128x128_S7168x128_1_0_0_1_n_n : DotDims S7168x128 S128x128 S7168x128 where
  lhsContracting := [1]
  rhsContracting := [0]
  lhsNonContracting := [0]
  rhsNonContracting := [1]
  lhsBatch := []
  rhsBatch := []
  wf := dot_S7168x128_S128x128_S7168x128_1_0_0_1_n_n_wf

abbrev win0_0 : Pipeline.Window sig grid0 :=
  Pipeline.Window.ofSpecClip (Memref.whole main_arg0) S1024x16x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S4x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v4) S1024x16x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x16x128 : Shape := ⟨3, ![50000, 16, 128]⟩
abbrev S4x128x128 : Shape := ⟨3, ![4, 128, 128]⟩
abbrev S4 : Shape := ⟨1, ![4]⟩
abbrev S50000x1x128 : Shape := ⟨3, ![50000, 1, 128]⟩
abbrev S1x128x128 : Shape := ⟨3, ![1, 128, 128]⟩
abbrev S128x128 : Shape := ⟨2, ![128, 128]⟩
abbrev S1 : Shape := ⟨1, ![1]⟩
abbrev S_ : Shape := ⟨0, ![]⟩
abbrev S50000x3x128 : Shape := ⟨3, ![50000, 3, 128]⟩
abbrev S50000x5x128 : Shape := ⟨3, ![50000, 5, 128]⟩
abbrev S50000x7x128 : Shape := ⟨3, ![50000, 7, 128]⟩

abbrev nBuf : Space → Nat
  | .hbm => 36
  | .vmem => 0
  | .smem => 0
  | _ => 0

abbrev bufTy : (tb : Table) → Fin (tcTables nBuf tb) → BufTy
  | .hbm, ⟨0, _⟩ => ⟨S50000x16x128, .f32⟩
  | .hbm, ⟨1, _⟩ => ⟨S4x128x128, .f32⟩
  | .hbm, ⟨2, _⟩ => ⟨S4, .f32⟩
  | .hbm, ⟨3, _⟩ => ⟨S50000x1x128, .f32⟩
  | .hbm, ⟨4, _⟩ => ⟨S1x128x128, .f32⟩
  | .hbm, ⟨5, _⟩ => ⟨S128x128, .f32⟩
  | .hbm, ⟨6, _⟩ => ⟨S50000x1x128, .f32⟩
  | .hbm, ⟨7, _⟩ => ⟨S1, .f32⟩
  | .hbm, ⟨8, _⟩ => ⟨S_, .f32⟩
  | .hbm, ⟨9, _⟩ => ⟨S50000x1x128, .f32⟩
  | .hbm, ⟨10, _⟩ => ⟨S50000x1x128, .f32⟩
  | .hbm, ⟨11, _⟩ => ⟨S50000x3x128, .f32⟩
  | .hbm, ⟨12, _⟩ => ⟨S1x128x128, .f32⟩
  | .hbm, ⟨13, _⟩ => ⟨S128x128, .f32⟩
  | .hbm, ⟨14, _⟩ => ⟨S50000x3x128, .f32⟩
  | .hbm, ⟨15, _⟩ => ⟨S1, .f32⟩
  | .hbm, ⟨16, _⟩ => ⟨S_, .f32⟩
  | .hbm, ⟨17, _⟩ => ⟨S50000x3x128, .f32⟩
  | .hbm, ⟨18, _⟩ => ⟨S50000x3x128, .f32⟩
  | .hbm, ⟨19, _⟩ => ⟨S50000x5x128, .f32⟩
  | .hbm, ⟨20, _⟩ => ⟨S1x128x128, .f32⟩
  | .hbm, ⟨21, _⟩ => ⟨S128x128, .f32⟩
  | .hbm, ⟨22, _⟩ => ⟨S50000x5x128, .f32⟩
  | .hbm, ⟨23, _⟩ => ⟨S1, .f32⟩
  | .hbm, ⟨24, _⟩ => ⟨S_, .f32⟩
  | .hbm, ⟨25, _⟩ => ⟨S50000x5x128, .f32⟩
  | .hbm, ⟨26, _⟩ => ⟨S50000x5x128, .f32⟩
  | .hbm, ⟨27, _⟩ => ⟨S50000x7x128, .f32⟩
  | .hbm, ⟨28, _⟩ => ⟨S1x128x128, .f32⟩
  | .hbm, ⟨29, _⟩ => ⟨S128x128, .f32⟩
  | .hbm, ⟨30, _⟩ => ⟨S50000x7x128, .f32⟩
  | .hbm, ⟨31, _⟩ => ⟨S1, .f32⟩
  | .hbm, ⟨32, _⟩ => ⟨S_, .f32⟩
  | .hbm, ⟨33, _⟩ => ⟨S50000x7x128, .f32⟩
  | .hbm, ⟨34, _⟩ => ⟨S50000x7x128, .f32⟩
  | .hbm, ⟨35, _⟩ => ⟨S50000x16x128, .f32⟩
  | _, _ => ⟨S50000x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]

class Facts₀ : Prop where
  slices_S50000x16x128_S50000x1x128_0_0_0 : S50000x16x128.Slices ![0, 0, 0] S50000x1x128
  slices_S4x128x128_S1x128x128_0_0_0 : S4x128x128.Slices ![0, 0, 0] S1x128x128
  shapeCasts_S1x128x128_S128x128 : S1x128x128.ShapeCasts S128x128
  slices_S4_S1_0 : S4.Slices ![0] S1
  shapeCasts_S1_S_ : S1.ShapeCasts S_
  bcast_S_S50000x1x128 : S_.BroadcastsInDim S50000x1x128 (![] : Fin 0 → Fin S50000x1x128.rank)
  slices_S50000x16x128_S50000x3x128_0_1_0 : S50000x16x128.Slices ![0, 1, 0] S50000x3x128
  slices_S4x128x128_S1x128x128_1_0_0 : S4x128x128.Slices ![1, 0, 0] S1x128x128
  slices_S4_S1_1 : S4.Slices ![1] S1
  bcast_S_S50000x3x128 : S_.BroadcastsInDim S50000x3x128 (![] : Fin 0 → Fin S50000x3x128.rank)
  slices_S50000x16x128_S50000x5x128_0_4_0 : S50000x16x128.Slices ![0, 4, 0] S50000x5x128
  slices_S4x128x128_S1x128x128_2_0_0 : S4x128x128.Slices ![2, 0, 0] S1x128x128
  slices_S4_S1_2 : S4.Slices ![2] S1
  bcast_S_S50000x5x128 : S_.BroadcastsInDim S50000x5x128 (![] : Fin 0 → Fin S50000x5x128.rank)
  slices_S50000x16x128_S50000x7x128_0_9_0 : S50000x16x128.Slices ![0, 9, 0] S50000x7x128
  slices_S4x128x128_S1x128x128_3_0_0 : S4x128x128.Slices ![3, 0, 0] S1x128x128
  slices_S4_S1_3 : S4.Slices ![3] S1
  bcast_S_S50000x7x128 : S_.BroadcastsInDim S50000x7x128 (![] : Fin 0 → Fin S50000x7x128.rank)
  concatenates_S50000x1x128_S50000x3x128_S50000x5x128_S50000x7x128_S50000x16x128_d1 : Shape.Concatenates [S50000x1x128, S50000x3x128, S50000x5x128, S50000x7x128] S50000x16x128 1
  dot_S50000x1x128_S128x128_S50000x1x128_2_0_01_1_n_n_wf : DotDims.WF S50000x1x128 S128x128 S50000x1x128 [2] [0] [0, 1] [1] [] []
  dot_S50000x3x128_S128x128_S50000x3x128_2_0_01_1_n_n_wf : DotDims.WF S50000x3x128 S128x128 S50000x3x128 [2] [0] [0, 1] [1] [] []
  dot_S50000x5x128_S128x128_S50000x5x128_2_0_01_1_n_n_wf : DotDims.WF S50000x5x128 S128x128 S50000x5x128 [2] [0] [0, 1] [1] [] []
  dot_S50000x7x128_S128x128_S50000x7x128_2_0_01_1_n_n_wf : DotDims.WF S50000x7x128 S128x128 S50000x7x128 [2] [0] [0, 1] [1] [] []

variable [Facts₀]

def dot_S50000x1x128_S128x128_S50000x1x128_2_0_01_1_n_n : DotDims S50000x1x128 S128x128 S50000x1x128 where
  lhsContracting := [2]
  rhsContracting := [0]
  lhsNonContracting := [0, 1]
  rhsNonContracting := [1]
  lhsBatch := []
  rhsBatch := []
  wf := dot_S50000x1x128_S128x128_S50000x1x128_2_0_01_1_n_n_wf
def dot_S50000x3x128_S128x128_S50000x3x128_2_0_01_1_n_n : DotDims S50000x3x128 S128x128 S50000x3x128 where
  lhsContracting := [2]
  rhsContracting := [0]
  lhsNonContracting := [0, 1]
  rhsNonContracting := [1]
  lhsBatch := []
  rhsBatch := []
  wf := dot_S50000x3x128_S128x128_S50000x3x128_2_0_01_1_n_n_wf
def dot_S50000x5x128_S128x128_S50000x5x128_2_0_01_1_n_n : DotDims S50000x5x128 S128x128 S50000x5x128 where
  lhsContracting := [2]
  rhsContracting := [0]
  lhsNonContracting := [0, 1]
  rhsNonContracting := [1]
  lhsBatch := []
  rhsBatch := []
  wf := dot_S50000x5x128_S128x128_S50000x5x128_2_0_01_1_n_n_wf
def dot_S50000x7x128_S128x128_S50000x7x128_2_0_01_1_n_n : DotDims S50000x7x128 S128x128 S50000x7x128 where
  lhsContracting := [2]
  rhsContracting := [0]
  lhsNonContracting := [0, 1]
  rhsNonContracting := [1]
  lhsBatch := []
  rhsBatch := []
  wf := dot_S50000x7x128_S128x128_S50000x7x128_2_0_01_1_n_n_wf

class Facts : Prop extends Facts₀ where

variable [Facts]
-- ==== Proof.BodyKernel.lean ====
/-
  The kernel body of the grouped linear map, run once on whole staging buffers.

  A block of the node axis is 1024 rows of the 16 spherical-harmonic components by 128 channels. The components fall
  into four groups by degree l = 0, 1, 2, 3: component rows [0,1), [1,4), [4,9), [9,16). For each group the body reads
  that band of the input block and matrix l of the weight block, flattens the band to (1024·(2l+1)) × 128, multiplies it
  by the 128 × 128 matrix into a zero accumulator, folds the product back to 1024 × (2l+1) × 128 and stores it over the same
  band of the output block. The four bands tile the output block, so what the output block holds afterwards is a function
  of the input block and the weight block alone (`outBlock`), whatever it held before; the two input blocks are only read.
-/
import proofs.«138451_j30597347016799_2_alg».proof.Proof.Gen.Kernel.Frame
import proofs.«138451_j30597347016799_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The bands -/

/-- Component rows [0,1), [1,4), [4,9), [9,16) of a 1024 × 16 × 128 block: the degrees l = 0, 1, 2, 3. -/
abbrev band0 : Rect S1024x16x128 := Rect.unit (s := S1024x16x128) ![0, 0, 0] S1024x1x128.size inb_S1024x16x128_S1024x1x128_0_0_0
abbrev band1 : Rect S1024x16x128 := Rect.unit (s := S1024x16x128) ![0, 1, 0] S1024x3x128.size inb_S1024x16x128_S1024x3x128_0_1_0
abbrev band2 : Rect S1024x16x128 := Rect.unit (s := S1024x16x128) ![0, 4, 0] S1024x5x128.size inb_S1024x16x128_S1024x5x128_0_4_0
abbrev band3 : Rect S1024x16x128 := Rect.unit (s := S1024x16x128) ![0, 9, 0] S1024x7x128.size inb_S1024x16x128_S1024x7x128_0_9_0
/-- Matrix l of the 4 × 128 × 128 weight block. -/
abbrev mat0 : Rect S4x128x128 := Rect.unit (s := S4x128x128) ![0, 0, 0] S1x128x128.size inb_S4x128x128_S1x128x128_0_0_0
abbrev mat1 : Rect S4x128x128 := Rect.unit (s := S4x128x128) ![1, 0, 0] S1x128x128.size inb_S4x128x128_S1x128x128_1_0_0
abbrev mat2 : Rect S4x128x128 := Rect.unit (s := S4x128x128) ![2, 0, 0] S1x128x128.size inb_S4x128x128_S1x128x128_2_0_0
abbrev mat3 : Rect S4x128x128 := Rect.unit (s := S4x128x128) ![3, 0, 0] S1x128x128.size inb_S4x128x128_S1x128x128_3_0_0

/-! ## What the body leaves in the output block -/

/-- The output block after the body, from the input block `x` and the weight block `w`: the four stores as pieces,
    the last store first; band l holds the product of band l of `x` with matrix l of `w`. -/
def outBlock (x : Vec F S1024x16x128 .f32) (w : Vec F S4x128x128 .bf16) : Vec F S1024x16x128 .f32 :=
  View.canon [⟨band3, k0_pay1 (View.ld x band3) (View.ld w mat3)⟩,
    ⟨band2, k0_pay4 (View.ld x band2) (View.ld w mat2)⟩,
    ⟨band1, k0_pay3 (View.ld x band1) (View.ld w mat1)⟩,
    ⟨band0, k0_pay2 (View.ld x band0) (View.ld w mat0)⟩]

/-- The four bands tile the block: cut into single component rows (1024 × 1 × 128) they are the block's sixteen rows,
    1 + 3 + 5 + 7 = 16, each once. -/
theorem bands_cover (p3 : Vec F S1024x7x128 .f32) (p2 : Vec F S1024x5x128 .f32) (p1 : Vec F S1024x3x128 .f32) (p0 : Vec F S1024x1x128 .f32)
    (y : S1024x16x128.Idx) :
    ∃ pc ∈ ([⟨band3, p3⟩, ⟨band2, p2⟩, ⟨band1, p1⟩, ⟨band0, p0⟩] : List (View.Piece (Elt F) S1024x16x128 .f32)), y ∈ pc.1.set :=
  View.cover_of_tiledBy [⟨band3, p3⟩, ⟨band2, p2⟩, ⟨band1, p1⟩, ⟨band0, p0⟩] ![1024, 1, 128] (by sl_kernel_rfl) y

/-! ## The body's triple -/

set_option maxHeartbeats 4000000 in
/-- The body on whole staging memrefs, the input block at `x`, the weight block at `w` and the output block at anything,
    runs to the continuation with the first two as they were and the output block at `outBlock x w`. -/
theorem sound_kernel (c : Dev nD) (E : Set ℕ) (i : grid0.Coords) (arg1 : Memref sig .tc .vmem S1024x16x128 .f32) (harg1 : arg1.IsWhole)
    (arg2 : Memref sig .tc .vmem S4x128x128 .bf16) (harg2 : arg2.IsWhole) (arg3 : Memref sig .tc .vmem S1024x16x128 .f32) (harg3 : arg3.IsWhole)
    (𝒱₀ : Variants) (x : Vec F S1024x16x128 .f32) (w : Vec F S4x128x128 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) 𝒱₀ c none) E (cc0__grouped_linear_kernel i arg1 harg1 arg2 harg2 arg3 harg3) K := by
  simp only [cc0__grouped_linear_kernel_eq_skeleton]; unfold cc0__grouped_linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (bands_cover _ _ _ _)

end Cert.Kernel.Body

end
-- ==== Proof.FrameKernel.lean ====
/-
  The frame of the grouped linear kernel as printed: it runs to the end, faults nowhere and leaves its three argument
  arrays as they were — for any float instance.

  The frame says nothing of what the result array holds, so the proof data is relational and asks nothing of what the body
  leaves in a staging buffer: the body runs from whatever the three buffers hold (the input block's rows past the array's
  end, at the last of the 49 points, are words nothing names), only reads the input and weight buffers, and overwrites the
  output buffer. The input array and the scaled weight array are never written by the pipeline, so after the run they hold
  what they held when the region was entered; the path weights and the unscaled weights bypass the region.
-/
import proofs.«138451_j30597347016799_2_alg».proof.Proof.BodyKernel
import Idealize.ShloMosaic.Lib.Pipeline.Kit

set_option maxRecDepth 16384

noncomputable section

namespace Cert.Kernel.FrameRel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data on core `c`: the arrays as the region finds them; of what the body leaves in a staging
    buffer, nothing; the region's own invariant (the scoped rest and the generator register); full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`, the three staging buffers at any contents `Y`, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2))

/-- and what it returns: the three buffers at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X))

/-- The body at any point, from any contents of the three buffers. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply (Body.sound_kernel c Set.univ (grid0.coords t) _ _ _ _ _ _ Variants.none (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (Body.outBlock (Y 0) (Y 1)); isplitr; · ipureintro; trivial
    iexact H2

/-- The library's relational body obligation, at every point. -/
theorem body_obligation (c : Dev nD) : (rdat (F := F) m c).BodyObligation (defs₀ (F := F)) Variants.none () Set.univ := fun t Y _ => by
  rw [bigSep_W0, bigSep_W0]
  exact sound_body m c t Y

set_option backward.isDefEq.respectTransparency.types false in
/-- Every weakly fair execution of @main terminates without a fault; afterwards every array of the pipeline holds
    contents the relational data admits and every buffer that bypasses the region what it held at the region's entry. -/
theorem run_main : θ_run defs (onTc (τ := τ) (main (F := F))) (s₀ m ρ) (RDat.FramePost cfg0 (rdat m) (V m)) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame: the three argument arrays end as they began. The node features are the input array of window 0, which no
    write-back touches; the weights and the path weights bypass the region; none is written by @main's host lines. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      (show r.2.mem ((c.tc : Thread nD τ).loc main_arg0) = (rdat m c).A 0 from by
        have h0 := (h c).1 0
        rw [(rdat m c).ArrAt_in 0 rfl] at h0
        exact h0).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.FrameRel

end
-- ==== Proof.BodyIdeal.lean ====
/-
  The kernel body of the grouped linear map, run once on whole staging buffers.

  A block of the node axis is 1024 rows of the 16 spherical-harmonic components by 128 channels. The components fall
  into four groups by degree l = 0, 1, 2, 3: component rows [0,1), [1,4), [4,9), [9,16). For each group the body reads
  that band of the input block and matrix l of the weight block, flattens the band to (1024·(2l+1)) × 128, multiplies it
  by the 128 × 128 matrix into a zero accumulator, folds the product back to 1024 × (2l+1) × 128 and stores it over the same
  band of the output block. The four bands tile the output block, so what the output block holds afterwards is a function
  of the input block and the weight block alone (`outBlock`), whatever it held before; the two input blocks are only read.
-/
import proofs.«138451_j30597347016799_2_alg».proof.Proof.Gen.KernelIdeal.Frame
import proofs.«138451_j30597347016799_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The bands -/

/-- Component rows [0,1), [1,4), [4,9), [9,16) of a 1024 × 16 × 128 block: the degrees l = 0, 1, 2, 3. -/
abbrev band0 : Rect S1024x16x128 := Rect.unit (s := S1024x16x128) ![0, 0, 0] S1024x1x128.size inb_S1024x16x128_S1024x1x128_0_0_0
abbrev band1 : Rect S1024x16x128 := Rect.unit (s := S1024x16x128) ![0, 1, 0] S1024x3x128.size inb_S1024x16x128_S1024x3x128_0_1_0
abbrev band2 : Rect S1024x16x128 := Rect.unit (s := S1024x16x128) ![0, 4, 0] S1024x5x128.size inb_S1024x16x128_S1024x5x128_0_4_0
abbrev band3 : Rect S1024x16x128 := Rect.unit (s := S1024x16x128) ![0, 9, 0] S1024x7x128.size inb_S1024x16x128_S1024x7x128_0_9_0
/-- Matrix l of the 4 × 128 × 128 weight block. -/
abbrev mat0 : Rect S4x128x128 := Rect.unit (s := S4x128x128) ![0, 0, 0] S1x128x128.size inb_S4x128x128_S1x128x128_0_0_0
abbrev mat1 : Rect S4x128x128 := Rect.unit (s := S4x128x128) ![1, 0, 0] S1x128x128.size inb_S4x128x128_S1x128x128_1_0_0
abbrev mat2 : Rect S4x128x128 := Rect.unit (s := S4x128x128) ![2, 0, 0] S1x128x128.size inb_S4x128x128_S1x128x128_2_0_0
abbrev mat3 : Rect S4x128x128 := Rect.unit (s := S4x128x128) ![3, 0, 0] S1x128x128.size inb_S4x128x128_S1x128x128_3_0_0

/-! ## What the body leaves in the output block -/

/-- The output block after the body, from the input block `x` and the weight block `w`: the four stores as pieces,
    the last store first; band l holds the product of band l of `x` with matrix l of `w`. -/
def outBlock (x : Vec F S1024x16x128 .f32) (w : Vec F S4x128x128 .bf16) : Vec F S1024x16x128 .f32 :=
  View.canon [⟨band3, k0_pay1 (View.ld x band3) (View.ld w mat3)⟩,
    ⟨band2, k0_pay4 (View.ld x band2) (View.ld w mat2)⟩,
    ⟨band1, k0_pay3 (View.ld x band1) (View.ld w mat1)⟩,
    ⟨band0, k0_pay2 (View.ld x band0) (View.ld w mat0)⟩]

/-- The four bands tile the block: cut into single component rows (1024 × 1 × 128) they are the block's sixteen rows,
    1 + 3 + 5 + 7 = 16, each once. -/
theorem bands_cover (p3 : Vec F S1024x7x128 .f32) (p2 : Vec F S1024x5x128 .f32) (p1 : Vec F S1024x3x128 .f32) (p0 : Vec F S1024x1x128 .f32)
    (y : S1024x16x128.Idx) :
    ∃ pc ∈ ([⟨band3, p3⟩, ⟨band2, p2⟩, ⟨band1, p1⟩, ⟨band0, p0⟩] : List (View.Piece (Elt F) S1024x16x128 .f32)), y ∈ pc.1.set :=
  View.cover_of_tiledBy [⟨band3, p3⟩, ⟨band2, p2⟩, ⟨band1, p1⟩, ⟨band0, p0⟩] ![1024, 1, 128] (by sl_kernel_rfl) y

/-! ## The body's triple -/

set_option maxHeartbeats 4000000 in
/-- The body on whole staging memrefs, the input block at `x`, the weight block at `w` and the output block at anything,
    runs to the continuation with the first two as they were and the output block at `outBlock x w`. -/
theorem sound_kernel (c : Dev nD) (E : Set ℕ) (i : grid0.Coords) (arg1 : Memref sig .tc .vmem S1024x16x128 .f32) (harg1 : arg1.IsWhole)
    (arg2 : Memref sig .tc .vmem S4x128x128 .bf16) (harg2 : arg2.IsWhole) (arg3 : Memref sig .tc .vmem S1024x16x128 .f32) (harg3 : arg3.IsWhole)
    (𝒱₀ : Variants) (x : Vec F S1024x16x128 .f32) (w : Vec F S4x128x128 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) 𝒱₀ c none) E (cc0__grouped_linear_kernel i arg1 harg1 arg2 harg2 arg3 harg3) K := by
  simp only [cc0__grouped_linear_kernel_eq_skeleton]; unfold cc0__grouped_linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (bands_cover _ _ _ _)

end Cert.KernelIdeal.Body

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.Spec.lean ====
/-
  The grouped linear map as one function of its three argument arrays over the extended reals, and the one algebraic law
  that joins the two programs.

  x is 50000 nodes × 16 spherical-harmonic components × 128 channels, w is 4 matrices of 128 × 128 (one per degree
  l = 0, 1, 2, 3), p is 4 path weights. Component m belongs to degree l when l² ≤ m < (l+1)²: rows [0,1), [1,4), [4,9),
  [9,16). The result at (n, m, d) mixes the channels of row (n, m) by the matrix of m's degree and scales by that degree's
  path weight:
      G x w p (n, m, d) = p l · Σ_{k < 128} x (n, m, k) · w (l, k, d),   l = degree m.
  One program scales the matrix first, Σ_k x (n, m, k) · (w (l, k, d) · p l); the other scales the product. These agree when
  every entry is a real number: the factor p l moves out of the finite sum by distributivity, which holds in ℝ and fails on
  the extended reals only where an infinity meets a term of the opposite sign or a zero.
-/
import Idealize.ShloMosaic.PureOps.Ideal
import Idealize.ShloMosaic.Lib.ValueIdx
import proofs.«138451_j30597347016799_2_alg».proof.Proof.LibERealSum

noncomputable section

open scoped BigOperators

namespace Cert.GroupedLinear

open Idealize.ShloMosaic Idealize.ShloMosaic.ValueIdx Idealize.ShloMosaic.ERealSum

/-- The degree l of component m: l² ≤ m < (l+1)². -/
def degree (m : Fin 16) : Fin 4 :=
  if m.val < 1 then 0 else if m.val < 4 then 1 else if m.val < 9 then 2 else 3

theorem degree_of_lt_one {m : Fin 16} (h : m.val < 1) : degree m = 0 := by
  unfold degree; rw [if_pos h]
theorem degree_of_lt_four {m : Fin 16} (h0 : 1 ≤ m.val) (h : m.val < 4) : degree m = 1 := by
  unfold degree; rw [if_neg (by omega), if_pos h]
theorem degree_of_lt_nine {m : Fin 16} (h0 : 4 ≤ m.val) (h : m.val < 9) : degree m = 2 := by
  unfold degree; rw [if_neg (by omega), if_neg (by omega), if_pos h]
theorem degree_of_ge_nine {m : Fin 16} (h0 : 9 ≤ m.val) : degree m = 3 := by
  unfold degree; rw [if_neg (by omega), if_neg (by omega), if_neg (by omega)]

abbrev SX : Shape := ⟨3, ![50000, 16, 128]⟩
abbrev SW : Shape := ⟨3, ![4, 128, 128]⟩
abbrev SP : Shape := ⟨1, ![4]⟩

/-- The channel mix of row (n, m) by the matrix of degree l, at output channel d. -/
def mix (x : SX.Idx → EReal) (w : SW.Idx → EReal) (n : Fin 50000) (m : Fin 16) (l : Fin 4) (d : Fin 128) : EReal :=
  ∑ k : Fin 128, x (ix3 n m k) * w (ix3 l k d)

/-- The grouped linear map: the mix by the matrix of the component's degree, scaled by that degree's path weight. -/
def G (x : SX.Idx → EReal) (w : SW.Idx → EReal) (p : SP.Idx → EReal) : SX.Idx → EReal :=
  fun i => p (ix1 (degree (i 1))) * mix x w (i 0) (i 1) (degree (i 1)) (i 2)

theorem G_apply (x : SX.Idx → EReal) (w : SW.Idx → EReal) (p : SP.Idx → EReal) (n : Fin 50000) (m : Fin 16) (d : Fin 128) :
    G x w p (ix3 n m d) = p (ix1 (degree m)) * ∑ k : Fin 128, x (ix3 n m k) * w (ix3 (degree m) k d) := rfl

/-! ## The law -/

/- The law is `sum_mul_scaled`: a common real factor of the second operands moves out of a finite sum of products of reals,
   over any finite index type. Here the index is the input channel and the factor the path weight. -/

/-- With the matrix scaled first, the mix is the grouped linear map, when every entry is a real number. -/
theorem scaledFirst_eq_G (x : SX.Idx → EReal) (w : SW.Idx → EReal) (p : SP.Idx → EReal)
    (hx : ∀ i, ∃ r : ℝ, x i = r) (hw : ∀ i, ∃ r : ℝ, w i = r) (hp : ∀ i, ∃ r : ℝ, p i = r)
    (n : Fin 50000) (m : Fin 16) (d : Fin 128) :
    ∑ k : Fin 128, x (ix3 n m k) * (w (ix3 (degree m) k d) * p (ix1 (degree m))) = G x w p (ix3 n m d) := by
  rw [G_apply]
  exact sum_mul_scaled (fun k => x (ix3 n m k)) (fun k => w (ix3 (degree m) k d)) _ (fun k => hx _) (fun k => hw _) (hp _)

end Cert.GroupedLinear

end
-- ==== Proof.BlockValue.lean ====
/-
  The body's output block read at an index, over the extended reals.

  At node row r, component row j and output channel d the output block holds the channels of input row (r, j) mixed by the
  matrix of j's degree: Σ_{k < 128} X (r, j, k) · W (degree j, k, d). Within a band of n component rows the body flattens
  (r, j') to row r·n + j' of a (1024·n) × 128 matrix, multiplies by the 128 × 128 matrix into a zero accumulator and folds
  back; both reshapes keep the row-major position, the format change before the product is the identity on the extended reals,
  and the product at (r·n + j', d) is the finite sum over the contracted channel. In particular row r of the output block
  depends on row r of the input block only, so output rows inside the array do not see input rows past the array's end.
-/
import proofs.«138451_j30597347016799_2_alg».proof.Proof.BodyIdeal
import proofs.«138451_j30597347016799_2_alg».proof.Proof.LibPlainDot
import proofs.«138451_j30597347016799_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.BlockValue

open Cert.KernelIdeal Cert.KernelIdeal.Gen Cert.KernelIdeal.Body Cert.GroupedLinear
open Idealize.ShloMosaic Idealize.ShloMosaic.ValueIdx

/-- A band of `n` component rows through the matrix unit: flatten 1024 × n × 128 to (1024·n) × 128, multiply by the
    128 × 128 matrix (a 1 × 128 × 128 slab with its unit axis dropped) into zero, fold back. At (r, j, d) it is
    Σ_k v (r, j, k) · u (0, k, d). -/
theorem bandProduct_apply (n : Nat) (v : FVec Ideal ⟨3, ![1024, n, 128]⟩ .f32) (u : FVec Ideal ⟨3, ![1, 128, 128]⟩ .bf16)
    (hb : FTy.bits .bf16 < FTy.bits .f32)
    (h1 : (⟨3, ![1024, n, 128]⟩ : Shape).ShapeCasts ⟨2, ![1024 * n, 128]⟩)
    (h2 : (⟨3, ![1, 128, 128]⟩ : Shape).ShapeCasts ⟨2, ![128, 128]⟩)
    (h3 : (⟨2, ![1024 * n, 128]⟩ : Shape).ShapeCasts ⟨3, ![1024, n, 128]⟩)
    (r : Fin 1024) (j : Fin n) (d : Fin 128) :
    shapeCast ⟨3, ![1024, n, 128]⟩
      (FloatOps.matmul (DotDims.plain (1024 * n) 128 128) none
        (shapeCast ⟨2, ![1024 * n, 128]⟩ (truncf .bf16 v hb) h1) (shapeCast ⟨2, ![128, 128]⟩ u h2)
        (constant ⟨2, ![1024 * n, 128]⟩ .f32 0x00000000#32)) h3 (ix3 r j d)
      = ∑ k : Fin 128, v (ix3 r j k) * u (ix3 (0 : Fin 1) k d) := by
  have hrow : r.val * n + j.val < 1024 * n := by
    have hr := r.isLt
    have hj := j.isLt
    calc r.val * n + j.val < r.val * n + n := by omega
      _ = (r.val + 1) * n := by ring
      _ ≤ 1024 * n := Nat.mul_le_mul_right n (by omega)
  rw [shapeCast_apply _ h3 (ix3 r j d) (ix2 ⟨r.val * n + j.val, hrow⟩ d) (by
        rw [Shape.rowMajor_val_two, Shape.rowMajor_val_three]; rfl)]
  rw [PlainDot.matmul_apply_ix2]
  refine Finset.sum_congr rfl fun k _ => ?_
  rw [shapeCast_apply (truncf .bf16 v hb) h1 (ix2 ⟨r.val * n + j.val, hrow⟩ k) (ix3 r j k) (by
        rw [Shape.rowMajor_val_two, Shape.rowMajor_val_three]; rfl),
    shapeCast_1ab_ab_apply u h2 k d]
  rfl

/-- Band 0 (degree 0: component rows 0 ≤ m < 1) of the body's product, read at node row `r`, row `j'` of the band and
    output channel `d`: the channels of input row (r, 0 + j') mixed by matrix 0 of the weight block. -/
theorem pay_band0 (X : Vec Ideal S1024x16x128 .f32) (W : Vec Ideal S4x128x128 .bf16) (r : Fin 1024) (j' : Fin 1) (d : Fin 128) :
    k0_pay2 (F := Ideal) (View.ld X band0) (View.ld W mat0) (ix3 r j' d)
      = ∑ k : Fin 128, X (ix3 r (⟨0 + j'.val, by have := j'.isLt; omega⟩ : Fin 16) k) * W (ix3 (0 : Fin 4) k d) := by
  unfold k0_pay2
  refine (bandProduct_apply 1 (View.ld X band0) (View.ld W mat0) _ _ _ _ r j' d).trans ?_
  refine Finset.sum_congr rfl fun k _ => ?_
  have eX : (band0.idx (ix3 r j' k) : S1024x16x128.Idx) = ix3 r (⟨0 + j'.val, by have := j'.isLt; omega⟩ : Fin 16) k :=
    funext fun a => Fin.ext (by
      match a with
      | ⟨0, _⟩ => show 0 + 1 * r.val = r.val; omega
      | ⟨1, _⟩ => show 0 + 1 * j'.val = 0 + j'.val; omega
      | ⟨2, _⟩ => show 0 + 1 * k.val = k.val; omega)
  have eW : (mat0.idx (ix3 (0 : Fin 1) k d) : S4x128x128.Idx) = ix3 (0 : Fin 4) k d :=
    funext fun a => Fin.ext (by
      match a with
      | ⟨0, _⟩ => show 0 + 1 * 0 = 0; omega
      | ⟨1, _⟩ => show 0 + 1 * k.val = k.val; omega
      | ⟨2, _⟩ => show 0 + 1 * d.val = d.val; omega)
  show X (band0.idx (ix3 r j' k)) * W (mat0.idx (ix3 (0 : Fin 1) k d)) = _
  rw [eX, eW]

/-- Band 1 (degree 1: component rows 1 ≤ m < 4) of the body's product, read at node row `r`, row `j'` of the band and
    output channel `d`: the channels of input row (r, 1 + j') mixed by matrix 1 of the weight block. -/
theorem pay_band1 (X : Vec Ideal S1024x16x128 .f32) (W : Vec Ideal S4x128x128 .bf16) (r : Fin 1024) (j' : Fin 3) (d : Fin 128) :
    k0_pay3 (F := Ideal) (View.ld X band1) (View.ld W mat1) (ix3 r j' d)
      = ∑ k : Fin 128, X (ix3 r (⟨1 + j'.val, by have := j'.isLt; omega⟩ : Fin 16) k) * W (ix3 (1 : Fin 4) k d) := by
  unfold k0_pay3
  refine (bandProduct_apply 3 (View.ld X band1) (View.ld W mat1) _ _ _ _ r j' d).trans ?_
  refine Finset.sum_congr rfl fun k _ => ?_
  have eX : (band1.idx (ix3 r j' k) : S1024x16x128.Idx) = ix3 r (⟨1 + j'.val, by have := j'.isLt; omega⟩ : Fin 16) k :=
    funext fun a => Fin.ext (by
      match a with
      | ⟨0, _⟩ => show 0 + 1 * r.val = r.val; omega
      | ⟨1, _⟩ => show 1 + 1 * j'.val = 1 + j'.val; omega
      | ⟨2, _⟩ => show 0 + 1 * k.val = k.val; omega)
  have eW : (mat1.idx (ix3 (0 : Fin 1) k d) : S4x128x128.Idx) = ix3 (1 : Fin 4) k d :=
    funext fun a => Fin.ext (by
      match a with
      | ⟨0, _⟩ => show 1 + 1 * 0 = 1; omega
      | ⟨1, _⟩ => show 0 + 1 * k.val = k.val; omega
      | ⟨2, _⟩ => show 0 + 1 * d.val = d.val; omega)
  show X (band1.idx (ix3 r j' k)) * W (mat1.idx (ix3 (0 : Fin 1) k d)) = _
  rw [eX, eW]

/-- Band 2 (degree 2: component rows 4 ≤ m < 9) of the body's product, read at node row `r`, row `j'` of the band and
    output channel `d`: the channels of input row (r, 4 + j') mixed by matrix 2 of the weight block. -/
theorem pay_band2 (X : Vec Ideal S1024x16x128 .f32) (W : Vec Ideal S4x128x128 .bf16) (r : Fin 1024) (j' : Fin 5) (d : Fin 128) :
    k0_pay4 (F := Ideal) (View.ld X band2) (View.ld W mat2) (ix3 r j' d)
      = ∑ k : Fin 128, X (ix3 r (⟨4 + j'.val, by have := j'.isLt; omega⟩ : Fin 16) k) * W (ix3 (2 : Fin 4) k d) := by
  unfold k0_pay4
  refine (bandProduct_apply 5 (View.ld X band2) (View.ld W mat2) _ _ _ _ r j' d).trans ?_
  refine Finset.sum_congr rfl fun k _ => ?_
  have eX : (band2.idx (ix3 r j' k) : S1024x16x128.Idx) = ix3 r (⟨4 + j'.val, by have := j'.isLt; omega⟩ : Fin 16) k :=
    funext fun a => Fin.ext (by
      match a with
      | ⟨0, _⟩ => show 0 + 1 * r.val = r.val; omega
      | ⟨1, _⟩ => show 4 + 1 * j'.val = 4 + j'.val; omega
      | ⟨2, _⟩ => show 0 + 1 * k.val = k.val; omega)
  have eW : (mat2.idx (ix3 (0 : Fin 1) k d) : S4x128x128.Idx) = ix3 (2 : Fin 4) k d :=
    funext fun a => Fin.ext (by
      match a with
      | ⟨0, _⟩ => show 2 + 1 * 0 = 2; omega
      | ⟨1, _⟩ => show 0 + 1 * k.val = k.val; omega
      | ⟨2, _⟩ => show 0 + 1 * d.val = d.val; omega)
  show X (band2.idx (ix3 r j' k)) * W (mat2.idx (ix3 (0 : Fin 1) k d)) = _
  rw [eX, eW]

/-- Band 3 (degree 3: component rows 9 ≤ m < 16) of the body's product, read at node row `r`, row `j'` of the band and
    output channel `d`: the channels of input row (r, 9 + j') mixed by matrix 3 of the weight block. -/
theorem pay_band3 (X : Vec Ideal S1024x16x128 .f32) (W : Vec Ideal S4x128x128 .bf16) (r : Fin 1024) (j' : Fin 7) (d : Fin 128) :
    k0_pay1 (F := Ideal) (View.ld X band3) (View.ld W mat3) (ix3 r j' d)
      = ∑ k : Fin 128, X (ix3 r (⟨9 + j'.val, by have := j'.isLt; omega⟩ : Fin 16) k) * W (ix3 (3 : Fin 4) k d) := by
  unfold k0_pay1
  refine (bandProduct_apply 7 (View.ld X band3) (View.ld W mat3) _ _ _ _ r j' d).trans ?_
  refine Finset.sum_congr rfl fun k _ => ?_
  have eX : (band3.idx (ix3 r j' k) : S1024x16x128.Idx) = ix3 r (⟨9 + j'.val, by have := j'.isLt; omega⟩ : Fin 16) k :=
    funext fun a => Fin.ext (by
      match a with
      | ⟨0, _⟩ => show 0 + 1 * r.val = r.val; omega
      | ⟨1, _⟩ => show 9 + 1 * j'.val = 9 + j'.val; omega
      | ⟨2, _⟩ => show 0 + 1 * k.val = k.val; omega)
  have eW : (mat3.idx (ix3 (0 : Fin 1) k d) : S4x128x128.Idx) = ix3 (3 : Fin 4) k d :=
    funext fun a => Fin.ext (by
      match a with
      | ⟨0, _⟩ => show 3 + 1 * 0 = 3; omega
      | ⟨1, _⟩ => show 0 + 1 * k.val = k.val; omega
      | ⟨2, _⟩ => show 0 + 1 * d.val = d.val; omega)
  show X (band3.idx (ix3 r j' k)) * W (mat3.idx (ix3 (0 : Fin 1) k d)) = _
  rw [eX, eW]

/-- Component row j of band 0, 0 ≤ j < 1, is row j − 0 of the band. -/
theorem band0_emb (r : Fin 1024) (j : Fin 16) (d : Fin 128) (hlo : 0 ≤ j.val) (hhi : j.val < 1) :
    (ix3 r j d : S1024x16x128.Idx) = band0.emb (ix3 r (⟨j.val - 0, by omega⟩ : Fin 1) d) :=
  funext fun a => Fin.ext (by
    match a with
    | ⟨0, _⟩ => show r.val = 0 + 1 * r.val; omega
    | ⟨1, _⟩ => show j.val = 0 + 1 * (j.val - 0); omega
    | ⟨2, _⟩ => show d.val = 0 + 1 * d.val; omega)

/-- A component row outside 0 ≤ j < 1 is not in band 0. -/
theorem not_mem_band0 (r : Fin 1024) (j : Fin 16) (d : Fin 128) (h : ¬(0 ≤ j.val ∧ j.val < 1)) :
    (ix3 r j d : S1024x16x128.Idx) ∉ (band0 : Rect S1024x16x128).set := fun hm => by
  have h1 : 0 ≤ j.val ∧ j.val < 0 + 1 := (Rect.mem_set_unit.mp hm) (1 : Fin 3)
  omega

/-- Component row j of band 1, 1 ≤ j < 4, is row j − 1 of the band. -/
theorem band1_emb (r : Fin 1024) (j : Fin 16) (d : Fin 128) (hlo : 1 ≤ j.val) (hhi : j.val < 4) :
    (ix3 r j d : S1024x16x128.Idx) = band1.emb (ix3 r (⟨j.val - 1, by omega⟩ : Fin 3) d) :=
  funext fun a => Fin.ext (by
    match a with
    | ⟨0, _⟩ => show r.val = 0 + 1 * r.val; omega
    | ⟨1, _⟩ => show j.val = 1 + 1 * (j.val - 1); omega
    | ⟨2, _⟩ => show d.val = 0 + 1 * d.val; omega)

/-- A component row outside 1 ≤ j < 4 is not in band 1. -/
theorem not_mem_band1 (r : Fin 1024) (j : Fin 16) (d : Fin 128) (h : ¬(1 ≤ j.val ∧ j.val < 4)) :
    (ix3 r j d : S1024x16x128.Idx) ∉ (band1 : Rect S1024x16x128).set := fun hm => by
  have h1 : 1 ≤ j.val ∧ j.val < 1 + 3 := (Rect.mem_set_unit.mp hm) (1 : Fin 3)
  omega

/-- Component row j of band 2, 4 ≤ j < 9, is row j − 4 of the band. -/
theorem band2_emb (r : Fin 1024) (j : Fin 16) (d : Fin 128) (hlo : 4 ≤ j.val) (hhi : j.val < 9) :
    (ix3 r j d : S1024x16x128.Idx) = band2.emb (ix3 r (⟨j.val - 4, by omega⟩ : Fin 5) d) :=
  funext fun a => Fin.ext (by
    match a with
    | ⟨0, _⟩ => show r.val = 0 + 1 * r.val; omega
    | ⟨1, _⟩ => show j.val = 4 + 1 * (j.val - 4); omega
    | ⟨2, _⟩ => show d.val = 0 + 1 * d.val; omega)

/-- A component row outside 4 ≤ j < 9 is not in band 2. -/
theorem not_mem_band2 (r : Fin 1024) (j : Fin 16) (d : Fin 128) (h : ¬(4 ≤ j.val ∧ j.val < 9)) :
    (ix3 r j d : S1024x16x128.Idx) ∉ (band2 : Rect S1024x16x128).set := fun hm => by
  have h1 : 4 ≤ j.val ∧ j.val < 4 + 5 := (Rect.mem_set_unit.mp hm) (1 : Fin 3)
  omega

/-- Component row j of band 3, 9 ≤ j < 16, is row j − 9 of the band. -/
theorem band3_emb (r : Fin 1024) (j : Fin 16) (d : Fin 128) (hlo : 9 ≤ j.val) (hhi : j.val < 16) :
    (ix3 r j d : S1024x16x128.Idx) = band3.emb (ix3 r (⟨j.val - 9, by omega⟩ : Fin 7) d) :=
  funext fun a => Fin.ext (by
    match a with
    | ⟨0, _⟩ => show r.val = 0 + 1 * r.val; omega
    | ⟨1, _⟩ => show j.val = 9 + 1 * (j.val - 9); omega
    | ⟨2, _⟩ => show d.val = 0 + 1 * d.val; omega)

/-- A component row outside 9 ≤ j < 16 is not in band 3. -/
theorem not_mem_band3 (r : Fin 1024) (j : Fin 16) (d : Fin 128) (h : ¬(9 ≤ j.val ∧ j.val < 16)) :
    (ix3 r j d : S1024x16x128.Idx) ∉ (band3 : Rect S1024x16x128).set := fun hm => by
  have h1 : 9 ≤ j.val ∧ j.val < 9 + 7 := (Rect.mem_set_unit.mp hm) (1 : Fin 3)
  omega

/-- A piece list headed by band 0, read inside the band. -/
theorem canon_band0 (X : Vec Ideal S1024x16x128 .f32) (W : Vec Ideal S4x128x128 .bf16) (L : List (View.Piece (Elt Ideal) S1024x16x128 .f32))
    (r : Fin 1024) (j : Fin 16) (d : Fin 128) (hlo : 0 ≤ j.val) (hhi : j.val < 1) :
    View.canon (⟨band0, k0_pay2 (F := Ideal) (View.ld X band0) (View.ld W mat0)⟩ :: L) (ix3 r j d)
      = ∑ k : Fin 128, X (ix3 r j k) * W (ix3 (0 : Fin 4) k d) := by
  rw [band0_emb r j d hlo hhi, View.canon_cons_emb, pay_band0]
  have ej : (⟨0 + (j.val - 0), by omega⟩ : Fin 16) = j := Fin.ext (by show 0 + (j.val - 0) = j.val; omega)
  rw [ej]

/-- A piece list headed by band 1, read inside the band. -/
theorem canon_band1 (X : Vec Ideal S1024x16x128 .f32) (W : Vec Ideal S4x128x128 .bf16) (L : List (View.Piece (Elt Ideal) S1024x16x128 .f32))
    (r : Fin 1024) (j : Fin 16) (d : Fin 128) (hlo : 1 ≤ j.val) (hhi : j.val < 4) :
    View.canon (⟨band1, k0_pay3 (F := Ideal) (View.ld X band1) (View.ld W mat1)⟩ :: L) (ix3 r j d)
      = ∑ k : Fin 128, X (ix3 r j k) * W (ix3 (1 : Fin 4) k d) := by
  rw [band1_emb r j d hlo hhi, View.canon_cons_emb, pay_band1]
  have ej : (⟨1 + (j.val - 1), by omega⟩ : Fin 16) = j := Fin.ext (by show 1 + (j.val - 1) = j.val; omega)
  rw [ej]

/-- A piece list headed by band 2, read inside the band. -/
theorem canon_band2 (X : Vec Ideal S1024x16x128 .f32) (W : Vec Ideal S4x128x128 .bf16) (L : List (View.Piece (Elt Ideal) S1024x16x128 .f32))
    (r : Fin 1024) (j : Fin 16) (d : Fin 128) (hlo : 4 ≤ j.val) (hhi : j.val < 9) :
    View.canon (⟨band2, k0_pay4 (F := Ideal) (View.ld X band2) (View.ld W mat2)⟩ :: L) (ix3 r j d)
      = ∑ k : Fin 128, X (ix3 r j k) * W (ix3 (2 : Fin 4) k d) := by
  rw [band2_emb r j d hlo hhi, View.canon_cons_emb, pay_band2]
  have ej : (⟨4 + (j.val - 4), by omega⟩ : Fin 16) = j := Fin.ext (by show 4 + (j.val - 4) = j.val; omega)
  rw [ej]

/-- A piece list headed by band 3, read inside the band. -/
theorem canon_band3 (X : Vec Ideal S1024x16x128 .f32) (W : Vec Ideal S4x128x128 .bf16) (L : List (View.Piece (Elt Ideal) S1024x16x128 .f32))
    (r : Fin 1024) (j : Fin 16) (d : Fin 128) (hlo : 9 ≤ j.val) (hhi : j.val < 16) :
    View.canon (⟨band3, k0_pay1 (F := Ideal) (View.ld X band3) (View.ld W mat3)⟩ :: L) (ix3 r j d)
      = ∑ k : Fin 128, X (ix3 r j k) * W (ix3 (3 : Fin 4) k d) := by
  rw [band3_emb r j d hlo hhi, View.canon_cons_emb, pay_band3]
  have ej : (⟨9 + (j.val - 9), by omega⟩ : Fin 16) = j := Fin.ext (by show 9 + (j.val - 9) = j.val; omega)
  rw [ej]

/-- Outside band 1 a piece list headed by it reads as its tail. -/
theorem canon_skip_band1 (p : Vec Ideal S1024x3x128 .f32) (L : List (View.Piece (Elt Ideal) S1024x16x128 .f32))
    (r : Fin 1024) (j : Fin 16) (d : Fin 128) (h : ¬(1 ≤ j.val ∧ j.val < 4)) :
    View.canon (⟨band1, p⟩ :: L) (ix3 r j d) = View.canon L (ix3 r j d) :=
  View.canon_cons_of_not_mem ⟨band1, p⟩ L (not_mem_band1 r j d h)

/-- Outside band 2 a piece list headed by it reads as its tail. -/
theorem canon_skip_band2 (p : Vec Ideal S1024x5x128 .f32) (L : List (View.Piece (Elt Ideal) S1024x16x128 .f32))
    (r : Fin 1024) (j : Fin 16) (d : Fin 128) (h : ¬(4 ≤ j.val ∧ j.val < 9)) :
    View.canon (⟨band2, p⟩ :: L) (ix3 r j d) = View.canon L (ix3 r j d) :=
  View.canon_cons_of_not_mem ⟨band2, p⟩ L (not_mem_band2 r j d h)

/-- Outside band 3 a piece list headed by it reads as its tail. -/
theorem canon_skip_band3 (p : Vec Ideal S1024x7x128 .f32) (L : List (View.Piece (Elt Ideal) S1024x16x128 .f32))
    (r : Fin 1024) (j : Fin 16) (d : Fin 128) (h : ¬(9 ≤ j.val ∧ j.val < 16)) :
    View.canon (⟨band3, p⟩ :: L) (ix3 r j d) = View.canon L (ix3 r j d) :=
  View.canon_cons_of_not_mem ⟨band3, p⟩ L (not_mem_band3 r j d h)

set_option maxHeartbeats 1000000 in
/-- The output block at (r, j, d): the channels of input row (r, j) mixed by the matrix of j's degree. -/
theorem outBlock_apply (X : Vec Ideal S1024x16x128 .f32) (W : Vec Ideal S4x128x128 .bf16) (r : Fin 1024) (j : Fin 16) (d : Fin 128) :
    outBlock (F := Ideal) X W (ix3 r j d) = ∑ k : Fin 128, X (ix3 r j k) * W (ix3 (degree j) k d) := by
  have hj := j.isLt
  unfold outBlock
  by_cases c3 : 9 ≤ j.val
  · rw [degree_of_ge_nine c3]; exact canon_band3 X W _ r j d c3 (by omega)
  rw [canon_skip_band3 _ _ r j d (by omega)]
  by_cases c2 : 4 ≤ j.val
  · rw [degree_of_lt_nine c2 (by omega)]; exact canon_band2 X W _ r j d c2 (by omega)
  rw [canon_skip_band2 _ _ r j d (by omega)]
  by_cases c1 : 1 ≤ j.val
  · rw [degree_of_lt_four c1 (by omega)]; exact canon_band1 X W _ r j d c1 (by omega)
  rw [canon_skip_band1 _ _ r j d (by omega)]
  rw [degree_of_lt_one (by omega)]; exact canon_band0 X W _ r j d (by omega) (by omega)

/-- Row locality: input blocks that agree on node rows below `n` give output blocks that agree there. -/
theorem outBlock_rows (X X' : Vec Ideal S1024x16x128 .f32) (W : Vec Ideal S4x128x128 .bf16) (n : Nat)
    (h : ∀ y : S1024x16x128.Idx, (y 0).val < n → X y = X' y) (y : S1024x16x128.Idx) (hy : (y 0).val < n) :
    outBlock (F := Ideal) X W y = outBlock (F := Ideal) X' W y := by
  obtain ⟨a, b, c, rfl⟩ : ∃ (a : Fin 1024) (b : Fin 16) (c : Fin 128), y = ix3 a b c := ⟨y 0, y 1, y 2, eq_ix3 y⟩
  rw [outBlock_apply, outBlock_apply]
  exact Finset.sum_congr rfl fun k _ => by rw [h (ix3 a b k) hy]

end Cert.KernelIdeal.BlockValue

end
-- ==== Proof.RunIdeal.lean ====
/-
  The idealized kernel's run with the result array named, over the extended reals.

  The node axis is cut into 49 blocks of 1024 rows; 49 · 1024 = 50176 exceeds 50000, so the last block overhangs the array by
  176 rows. A fetch of that block fills only the buffer's first 848 rows with rows of the array; the rest hold words nothing
  names, and the write-back of the output block writes only its first 848 rows. What the pipeline needs of the body at each
  point is therefore stated on the rows inside the array alone: the output block's row r is the channel mix of the input
  block's row r (the matrix product works row by row), so on those rows it is the same whatever the overhanging rows
  hold. Block by block the write-backs cover the result array, which ends holding, at (n, m, d),
  Σ_k x (n, m, k) · s (degree m, k, d), where s is the weight array @main scaled by the path weights before the call:
  s (l, k, d) = w (l, k, d) · p l.
-/
import proofs.«138451_j30597347016799_2_alg».proof.Proof.BlockValue
import Idealize.ShloMosaic.Lib.Pipeline.Kit
import Idealize.ShloMosaic.Lib.Pipeline.Value
import Idealize.ShloMosaic.Lib.StableHlo.Run

set_option maxRecDepth 16384

noncomputable section

open scoped BigOperators

namespace Cert.KernelIdeal.RunIdeal

open Cert.KernelIdeal Cert.KernelIdeal.Gen Cert.KernelIdeal.Body Cert.KernelIdeal.BlockValue Cert.GroupedLinear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx Idealize.ShloMosaic.StableHlo

local notation "𝕄" => MT nD τ sig Unit (Elt Ideal) ℕ (UR sig nD τ) ℕ

variable (m : (ℓ : Loc nD τ sig) → Buf (Elt Ideal) ℓ) (ρ : Dev nD → PrngReg)

/-! ## The blocks, decided over the grid -/

/-- At every point: the input and output blocks are cut on the node axis only and alike; block t of either starts at node
    row 1024 · t and ends at the array's end or 1024 rows on, whichever comes first; the weight block is the whole array. -/
theorem block_facts : ∀ t : Fin cfg0.N,
    win0_0.xsize (grid0.coords t) (1 : Fin 3) = 16 ∧ win0_0.xsize (grid0.coords t) (2 : Fin 3) = 128
    ∧ win0_2.xsize (grid0.coords t) (0 : Fin 3) = win0_0.xsize (grid0.coords t) (0 : Fin 3)
    ∧ win0_2.xsize (grid0.coords t) (1 : Fin 3) = 16 ∧ win0_2.xsize (grid0.coords t) (2 : Fin 3) = 128
    ∧ win0_0.index t (0 : Fin 3) = t.val ∧ win0_0.index t (1 : Fin 3) = 0 ∧ win0_0.index t (2 : Fin 3) = 0
    ∧ win0_2.index t (0 : Fin 3) = t.val ∧ win0_2.index t (1 : Fin 3) = 0 ∧ win0_2.index t (2 : Fin 3) = 0
    ∧ win0_1.index t (0 : Fin 3) = 0 ∧ win0_1.index t (1 : Fin 3) = 0 ∧ win0_1.index t (2 : Fin 3) = 0
    ∧ t.val * 1024 + win0_2.xsize (grid0.coords t) (0 : Fin 3) = min 50000 (t.val * 1024 + 1024) :=
  (by decide +kernel : ∀ t : Fin grid0.N, _)

/-! ## The proof data -/

/-- The input block at point `t` as a whole 1024-row block: the array's rows where the block lies inside the array, zero
    on the rows past its end (any filler would do: nothing below reads it). -/
def xin (c : Dev nD) (t : Fin cfg0.N) : S1024x16x128.Idx → Elt Ideal .f32 :=
  win0_0.fill (grid0.coords t) (fun _ => FloatOps.ofBits (F := Ideal) .f32 0#32) (iblk m c 0 t)

/-- The proof data on core `c`: the arrays as the region finds them; after the body the input buffer at `xin`, the
    weight buffer at the weight block, the output buffer at the body's product of the two; the region's own invariant. -/
def dats (_ : Fin 1) (c : Dev nD) : Dat τ (Elt Ideal) Unit ℕ (UR sig nD τ) ℕ cfg0 c where
  A w := V m c (Pipeline.arrRef spec0 w)
  after w t := match w with
    | ⟨0, _⟩ => xin m c t
    | ⟨1, _⟩ => iblk m c 1 t
    | ⟨2, _⟩ => outBlock (F := Ideal) (xin m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlock (F := Ideal) (xin m c t) (iblk m c 1 t) := by dsimp only [dats]

/-- The input buffer is fetched at every point: the block's rows inside the array, `d` past its end. -/
theorem before0_0 (c : Dev nD) (t : Fin cfg0.N) (d) :
    (dats m 0 c).before 0 t d = win0_0.fill (grid0.coords t) d (iblk m c 0 t) := by
  unfold Dat.before; rw [if_pos (fetch0_0 t)]; rfl
/-- The weight buffer holds the weight block at every point, fetched there or not. -/
theorem before0_1 (c : Dev nD) (t : Fin cfg0.N) (d) : (dats m 0 c).before 1 t d = iblk m c 1 t :=
  before0_1_of m (dats m 0 c) (A_eq m c 1) (after0_1 m c) t d

/-! ## Rows inside the array -/

/-- Two fills of the input block agree on the node rows the fetch moves. -/
theorem fill_rows (c : Dev nD) (t : Fin cfg0.N) (d d' : S1024x16x128.Idx → Elt Ideal .f32)
    (y : S1024x16x128.Idx) (hy : (y 0).val < win0_0.xsize (grid0.coords t) (0 : Fin 3)) :
    win0_0.fill (grid0.coords t) d (iblk m c 0 t) y = win0_0.fill (grid0.coords t) d' (iblk m c 0 t) y := by
  obtain ⟨x01, x02, -⟩ := block_facts t
  have hm : win0_0.moved (grid0.coords t) y = true := (win0_0.moved_iff _ _).mpr fun a => by
    match a with
    | ⟨0, _⟩ => exact hy
    | ⟨1, _⟩ => show (y 1).val < win0_0.xsize (grid0.coords t) (1 : Fin 3); rw [x01]; exact (y 1).isLt
    | ⟨2, _⟩ => show (y 2).val < win0_0.xsize (grid0.coords t) (2 : Fin 3); rw [x02]; exact (y 2).isLt
  unfold Window.fill
  rw [dif_pos hm, dif_pos hm]

/-- On the rows the write-back moves, the body's product does not depend on what the input buffer holds past the
    array's end: the loose form of what the body leaves in the output buffer. -/
theorem out_loose (c : Dev nD) (t : Fin cfg0.N) (d0 : S1024x16x128.Idx → Elt Ideal .f32) :
    win0_2.fill (grid0.coords t) (outBlock (F := Ideal) (win0_0.fill (grid0.coords t) d0 (iblk m c 0 t)) (iblk m c 1 t))
        (win0_2.cut (grid0.coords t) (outBlock (F := Ideal) (xin m c t) (iblk m c 1 t)))
      = outBlock (F := Ideal) (win0_0.fill (grid0.coords t) d0 (iblk m c 0 t)) (iblk m c 1 t) := by
  obtain ⟨-, -, x20, -⟩ := block_facts t
  refine win0_2.fill_congr_cut (grid0.coords t) (funext fun j' => ?_)
  exact outBlock_rows _ _ _ (win0_0.xsize (grid0.coords t) (0 : Fin 3)) (fun y hy => fill_rows m c t _ _ y hy) _
    (by show (j' 0).val < _; rw [← x20]; exact (j' 0).isLt)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t)))))

/-- The body at any point: it finds the input block filled out with some `d` and the weight block, and leaves the input
    buffer as found, the weight buffer as found and the output buffer at the product — on the moved rows the proof data's. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  rw [before0_0 m c t d0, before0_1 m c t d1]
  iapply (sound_kernel c Set.univ (grid0.coords t) _ _ _ _ _ _ Variants.none (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (xin m c t) = iblk m c 0 t from win0_0.cut_fill _ _ _]
    iexact H0
  isplitl [H1]; · iexact H1
  · iexists (outBlock (F := Ideal) (win0_0.fill (grid0.coords t) d0 (iblk m c 0 t)) (iblk m c 1 t))
    rw [out_loose m c t d0]
    iexact H2

theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## What the result array ends holding -/

/-- The channel mix with an already scaled weight array `s`. -/
def mixScaled (x : SX.Idx → EReal) (s : SW.Idx → EReal) : SX.Idx → EReal :=
  fun i => ∑ k : Fin 128, x (ix3 (i 0) (i 1) k) * s (ix3 (degree (i 1)) k (i 2))

theorem mixScaled_apply (x : SX.Idx → EReal) (s : SW.Idx → EReal) (n : Fin 50000) (j : Fin 16) (d : Fin 128) :
    mixScaled x s (ix3 n j d) = ∑ k : Fin 128, x (ix3 n j k) * s (ix3 (degree j) k d) := rfl

/-- The input block's row r at point t is the array's row 1024 · t + r, where the block lies inside the array. -/
theorem xin_apply (c : Dev nD) (t : Fin cfg0.N) (r : Fin 1024) (j : Fin 16) (k : Fin 128) (n : Fin 50000)
    (hr : r.val < win0_0.xsize (grid0.coords t) (0 : Fin 3)) (hn : n.val = t.val * 1024 + r.val) :
    xin m c t (ix3 r j k) = V m c main_arg0 (ix3 n j k) := by
  obtain ⟨x01, x02, -, -, -, i00, i01, i02, -⟩ := block_facts t
  have hm : win0_0.moved (grid0.coords t) (ix3 r j k : S1024x16x128.Idx) = true := (win0_0.moved_iff _ _).mpr fun a => by
    match a with
    | ⟨0, _⟩ => exact hr
    | ⟨1, _⟩ => show j.val < win0_0.xsize (grid0.coords t) (1 : Fin 3); rw [x01]; exact j.isLt
    | ⟨2, _⟩ => show k.val < win0_0.xsize (grid0.coords t) (2 : Fin 3); rw [x02]; exact k.isLt
  unfold xin Window.fill
  rw [dif_pos hm]
  show V m c main_arg0 (((cfg0.win 0).blk t).view.emb _) = _
  refine congrArg _ (funext fun a => Fin.ext ?_)
  match a with
  | ⟨0, _⟩ => show win0_0.index t (0 : Fin 3) * 1024 + 1 * r.val = n.val; rw [i00, hn]; omega
  | ⟨1, _⟩ => show win0_0.index t (1 : Fin 3) * 16 + 1 * j.val = j.val; rw [i01]; omega
  | ⟨2, _⟩ => show win0_0.index t (2 : Fin 3) * 128 + 1 * k.val = k.val; rw [i02]; omega

/-- The weight block is the scaled weight array. -/
theorem wblk_apply (c : Dev nD) (t : Fin cfg0.N) (l : Fin 4) (k d : Fin 128) :
    iblk m c 1 t (ix3 l k d) = V m c main_v3 (ix3 l k d) := by
  obtain ⟨-, -, -, -, -, -, -, -, -, -, -, i10, i11, i12, -⟩ := block_facts t
  show V m c main_v3 (((cfg0.win 1).blk t).view.emb (ix3 l k d)) = _
  refine congrArg _ (funext fun a => Fin.ext ?_)
  match a with
  | ⟨0, _⟩ => show win0_1.index t (0 : Fin 3) * 4 + 1 * l.val = l.val; rw [i10]; omega
  | ⟨1, _⟩ => show win0_1.index t (1 : Fin 3) * 128 + 1 * k.val = k.val; rw [i11]; omega
  | ⟨2, _⟩ => show win0_1.index t (2 : Fin 3) * 128 + 1 * d.val = d.val; rw [i12]; omega

/-- What point `t` writes back is block `t` of the mix of the node features with the scaled weights. -/
theorem flushed_eq (c : Dev nD) (t : Fin cfg0.N) :
    (dats m 0 c).flushed 2 t = ((cfg0.win 2).blk t).view.read (Elt Ideal) (mixScaled (V m c main_arg0) (V m c main_v3)) := by
  show (cfg0.win 2).cut (grid0.coords t) ((dats m 0 c).after 2 t) = _
  rw [after0_2]
  obtain ⟨x01, x02, x20, x21, x22, i00, i01, i02, i20, i21, i22, i10, i11, i12, hcl⟩ := block_facts t
  funext j'
  have g0 : (j' 0).val < win0_2.xsize (grid0.coords t) (0 : Fin 3) := (j' 0).isLt
  have g1 : (j' 1).val < win0_2.xsize (grid0.coords t) (1 : Fin 3) := (j' 1).isLt
  have g2 : (j' 2).val < win0_2.xsize (grid0.coords t) (2 : Fin 3) := (j' 2).isLt
  have h0 : (j' 0).val < 1024 := lt_of_lt_of_le g0 (win0_2.xsize_le _ (0 : Fin 3))
  have h1 : (j' 1).val < 16 := by rw [x21] at g1; exact g1
  have h2 : (j' 2).val < 128 := by rw [x22] at g2; exact g2
  have hn : t.val * 1024 + (j' 0).val < 50000 := by omega
  show outBlock (F := Ideal) (xin m c t) (iblk m c 1 t) (win0_2.xinj (grid0.coords t) j')
    = mixScaled (V m c main_arg0) (V m c main_v3) (((cfg0.win 2).blk t).view.emb j')
  have e1 : win0_2.xinj (grid0.coords t) j'
      = (ix3 (⟨(j' 0).val, h0⟩ : Fin 1024) (⟨(j' 1).val, h1⟩ : Fin 16) (⟨(j' 2).val, h2⟩ : Fin 128) : S1024x16x128.Idx) :=
    funext fun a => Fin.ext (by
      match a with
      | ⟨0, _⟩ => rfl
      | ⟨1, _⟩ => rfl
      | ⟨2, _⟩ => rfl)
  have e2 : ((cfg0.win 2).blk t).view.emb j'
      = (ix3 (⟨t.val * 1024 + (j' 0).val, hn⟩ : Fin 50000) (⟨(j' 1).val, h1⟩ : Fin 16) (⟨(j' 2).val, h2⟩ : Fin 128) : S50000x16x128.Idx) :=
    funext fun a => Fin.ext (by
      match a with
      | ⟨0, _⟩ => show win0_2.index t (0 : Fin 3) * 1024 + 1 * (j' 0).val = t.val * 1024 + (j' 0).val; rw [i20]; omega
      | ⟨1, _⟩ => show win0_2.index t (1 : Fin 3) * 16 + 1 * (j' 1).val = (j' 1).val; rw [i21]; omega
      | ⟨2, _⟩ => show win0_2.index t (2 : Fin 3) * 128 + 1 * (j' 2).val = (j' 2).val; rw [i22]; omega)
  rw [e1, e2, outBlock_apply, mixScaled_apply]
  refine Finset.sum_congr rfl fun k _ => ?_
  rw [xin_apply m c t _ _ k ⟨t.val * 1024 + (j' 0).val, hn⟩ (by rw [← x20]; exact g0) rfl, wblk_apply]

/-- An index of the result array is in point t's block iff each coordinate is in the block's (cut) range on its axis. -/
theorem mem_blk (t : Fin cfg0.N) (i : S50000x16x128.Idx) :
    i ∈ ((cfg0.win 2).blk t).view.set ↔ ∀ a : Fin 3, win0_2.index t a * S1024x16x128.size a ≤ (i a).val
      ∧ (i a).val < win0_2.index t a * S1024x16x128.size a + win0_2.xsize (grid0.coords t) a := by
  show i ∈ ((View.whole main_v4).slice (win0_2.rect t)).set ↔ _
  rw [View.set_slice_whole, Rect.mem_set_unit]
  exact Iff.rfl

/-- Node row n lies in block n / 1024: the 49 blocks, the last one cut at the array's end, cover the result array. -/
theorem covered (i : S50000x16x128.Idx) :
    ∃ t : Fin cfg0.N, (cfg0.win 2).flush t = true ∧ i ∈ ((cfg0.win 2).blk t).view.set := by
  have hi0 : (i 0).val < 50000 := (i 0).isLt
  have hi1 : (i 1).val < 16 := (i 1).isLt
  have hi2 : (i 2).val < 128 := (i 2).isLt
  have hN : cfg0.N = 49 := N_0
  have ht : (i 0).val / 1024 < cfg0.N := by rw [hN]; omega
  refine ⟨⟨(i 0).val / 1024, ht⟩, flush0_2 _, (mem_blk _ i).mpr ?_⟩
  obtain ⟨x01, x02, x20, x21, x22, i00, i01, i02, i20, i21, i22, i10, i11, i12, hcl⟩ := block_facts ⟨(i 0).val / 1024, ht⟩
  have hv : (⟨(i 0).val / 1024, ht⟩ : Fin cfg0.N).val = (i 0).val / 1024 := rfl
  intro a
  match a with
  | ⟨0, _⟩ =>
    show win0_2.index ⟨(i 0).val / 1024, ht⟩ (0 : Fin 3) * 1024 ≤ (i 0).val
      ∧ (i 0).val < win0_2.index ⟨(i 0).val / 1024, ht⟩ (0 : Fin 3) * 1024 + win0_2.xsize (grid0.coords ⟨(i 0).val / 1024, ht⟩) (0 : Fin 3)
    rw [i20]; rw [hv] at hcl ⊢; omega
  | ⟨1, _⟩ =>
    show win0_2.index ⟨(i 0).val / 1024, ht⟩ (1 : Fin 3) * 16 ≤ (i 1).val
      ∧ (i 1).val < win0_2.index ⟨(i 0).val / 1024, ht⟩ (1 : Fin 3) * 16 + win0_2.xsize (grid0.coords ⟨(i 0).val / 1024, ht⟩) (1 : Fin 3)
    rw [i21, x21]; omega
  | ⟨2, _⟩ =>
    show win0_2.index ⟨(i 0).val / 1024, ht⟩ (2 : Fin 3) * 128 ≤ (i 2).val
      ∧ (i 2).val < win0_2.index ⟨(i 0).val / 1024, ht⟩ (2 : Fin 3) * 128 + win0_2.xsize (grid0.coords ⟨(i 0).val / 1024, ht⟩) (2 : Fin 3)
    rw [i22, x22]; omega

/-- THE RESULT ARRAY after the run: the mix of the node features with the scaled weights, as the region found them. -/
theorem final (c : Dev nD) : (dats m 0 c).arrAt 2 cfg0.N = mixScaled (V m c main_arg0) (V m c main_v3) :=
  (dats m 0 c).arrAt_eq_of_cover 2 _ (fun t _ => flushed_eq m c t) covered

/-! ## The scaled weights -/

/-- The weights and the path weights as launched, as arrays of extended reals. -/
abbrev wArr (c : Dev nD) : SW.Idx → EReal := m ((c : Thread nD τ).loc main_arg1)
abbrev pArr (c : Dev nD) : SP.Idx → EReal := m ((c : Thread nD τ).loc main_arg2)

/-- The weight array the region finds: @main's host lines multiply each matrix by its path weight (the path weights lifted
    to 4 × 1 × 1 and then to 4 × 128 × 128) and change the format, which is the identity here. -/
theorem scaled_weights (c : Dev nD) (l : Fin 4) (k d : Fin 128) :
    V m c main_v3 (ix3 l k d)
      = wArr m c (ix3 l k d) * pArr m c (ix1 l) := by
  have e : V m c main_v3
      = (truncf (F := Ideal) .bf16 (mulf (wArr m c)
          (broadcastInDim S4x128x128 ![0, 1, 2] bcast_S4x1x1_S4x128x128_0_1_2
            (broadcastInDim S4x1x1 ![0] bcast_S4_S4x1x1_0 (pArr m c)))) bitsLt_bf16_f32 : FVec Ideal S4x128x128 .bf16) := by
    dsimp only [V, hostOps0]; after_results
  rw [e]
  show wArr m c (ix3 l k d) * _ = _
  congr 1
  rw [broadcastInDim_apply _ bcast_S4x1x1_S4x128x128_0_1_2 _ (ix3 l k d) (ix3 l (0 : Fin 1) (0 : Fin 1)) (fun a => by
      match a with
      | ⟨0, _⟩ => rfl
      | ⟨1, _⟩ => rfl
      | ⟨2, _⟩ => rfl),
    broadcastInDim_apply _ bcast_S4_S4x1x1_0 _ (ix3 l (0 : Fin 1) (0 : Fin 1)) (ix1 l) (fun a => by
      match a with
      | ⟨0, _⟩ => rfl)]

end Cert.KernelIdeal.RunIdeal

end
-- ==== Proof.RefValue.lean ====
/-
  The reference program's result as a function of its three argument arrays, index by index, over the extended reals: it
  is the grouped linear map `G`.

  The reference works degree by degree: rows l² ≤ m < (l+1)² of the node features against matrix l (a contraction over
  the 128 input channels), the product scaled by path weight l, and the four scaled products laid side by side along the
  component axis. At component row m the laid-out result is the piece of m's degree at row m − l², so at (n, m, d) it is
  p l · Σ_k x (n, m, k) · w (l, k, d) with l the degree of m — `G` by definition, with no algebra needed.
-/
import proofs.«138451_j30597347016799_2_alg».proof.Proof.Gen.ReferenceIdeal.Read
import proofs.«138451_j30597347016799_2_alg».proof.Proof.Spec
import Idealize.ShloMosaic.Lib.Pipeline.Value
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read Cert.GroupedLinear
open Idealize.ShloMosaic Idealize.ShloMosaic.ValueIdx

/-- Degree 0 of the reference: its rows 0 ≤ m < 1 of the node features against matrix 0, scaled by path weight 0. -/
theorem ref_band0 (x : SX.Idx → EReal) (w : SW.Idx → EReal) (p : SP.Idx → EReal) (n : Fin 50000) (j' : Fin 1) (d : Fin 128) :
    val_main_v7 (F := Ideal) x w p (ix3 n j' d)
      = p (ix1 (0 : Fin 4)) * ∑ k : Fin 128, x (ix3 n (⟨0 + j'.val, by have := j'.isLt; omega⟩ : Fin 16) k) * w (ix3 (0 : Fin 4) k d) := by
  have hp : val_main_v5 (F := Ideal) p (idx_main_v6 (ix3 n j' d)) = p (ix1 (0 : Fin 4)) := by
    unfold val_main_v5
    rw [shapeCast_apply (val_main_v4 (F := Ideal) p) shapeCasts_S1_S_ _ (ix1 (0 : Fin 1)) (by
      rw [Shape.rowMajor_val_one]
      have h0 := (S_.rowMajor (idx_main_v6 (ix3 n j' d))).isLt
      have e : S_.numel = 1 := by simp [Shape.numel]
      show (0 : Nat) = _
      omega), val_main_v4_apply]
    exact congrArg p (funext fun a => Fin.ext (by
      match a with
      | ⟨0, _⟩ => show 0 = 0; omega))
  rw [val_main_v7_apply, val_main_v6_apply, hp, val_main_v3_apply]
  show p _ * _ = p _ * _
  congr 1
  refine Finset.sum_congr rfl fun k _ => ?_
  rw [val_main_v0_apply, val_main_v2_apply, val_main_v1_apply]
  have eX : idx_main_v0 (lidx_main_v3 (ix3 n j' d) k) = ix3 n (⟨0 + j'.val, by have := j'.isLt; omega⟩ : Fin 16) k :=
    funext fun a => Fin.ext (by
      match a with
      | ⟨0, _⟩ => show n.val = n.val; rfl
      | ⟨1, _⟩ => show j'.val = 0 + j'.val; omega
      | ⟨2, _⟩ => show k.val = k.val; rfl)
  have eW : idx_main_v1 (idx_main_v2 (ridx_main_v3 (ix3 n j' d) k)) = ix3 (0 : Fin 4) k d :=
    funext fun a => Fin.ext (by
      have hk := k.isLt
      have hd := d.isLt
      match a with
      | ⟨0, _⟩ => show 0 = 0; omega
      | ⟨1, _⟩ => show (k.val * 128 + d.val) / 128 % 128 = k.val; omega
      | ⟨2, _⟩ => show (k.val * 128 + d.val) % 128 = d.val; omega)
  rw [eX, eW]

/-- Degree 1 of the reference: its rows 1 ≤ m < 4 of the node features against matrix 1, scaled by path weight 1. -/
theorem ref_band1 (x : SX.Idx → EReal) (w : SW.Idx → EReal) (p : SP.Idx → EReal) (n : Fin 50000) (j' : Fin 3) (d : Fin 128) :
    val_main_v15 (F := Ideal) x w p (ix3 n j' d)
      = p (ix1 (1 : Fin 4)) * ∑ k : Fin 128, x (ix3 n (⟨1 + j'.val, by have := j'.isLt; omega⟩ : Fin 16) k) * w (ix3 (1 : Fin 4) k d) := by
  have hp : val_main_v13 (F := Ideal) p (idx_main_v14 (ix3 n j' d)) = p (ix1 (1 : Fin 4)) := by
    unfold val_main_v13
    rw [shapeCast_apply (val_main_v12 (F := Ideal) p) shapeCasts_S1_S_ _ (ix1 (0 : Fin 1)) (by
      rw [Shape.rowMajor_val_one]
      have h0 := (S_.rowMajor (idx_main_v14 (ix3 n j' d))).isLt
      have e : S_.numel = 1 := by simp [Shape.numel]
      show (0 : Nat) = _
      omega), val_main_v12_apply]
    exact congrArg p (funext fun a => Fin.ext (by
      match a with
      | ⟨0, _⟩ => show 1 + 0 = 1; omega))
  rw [val_main_v15_apply, val_main_v14_apply, hp, val_main_v11_apply]
  show p _ * _ = p _ * _
  congr 1
  refine Finset.sum_congr rfl fun k _ => ?_
  rw [val_main_v8_apply, val_main_v10_apply, val_main_v9_apply]
  have eX : idx_main_v8 (lidx_main_v11 (ix3 n j' d) k) = ix3 n (⟨1 + j'.val, by have := j'.isLt; omega⟩ : Fin 16) k :=
    funext fun a => Fin.ext (by
      match a with
      | ⟨0, _⟩ => show n.val = n.val; rfl
      | ⟨1, _⟩ => show 1 + j'.val = 1 + j'.val; omega
      | ⟨2, _⟩ => show k.val = k.val; rfl)
  have eW : idx_main_v9 (idx_main_v10 (ridx_main_v11 (ix3 n j' d) k)) = ix3 (1 : Fin 4) k d :=
    funext fun a => Fin.ext (by
      have hk := k.isLt
      have hd := d.isLt
      match a with
      | ⟨0, _⟩ => show 1 + 0 = 1; omega
      | ⟨1, _⟩ => show (k.val * 128 + d.val) / 128 % 128 = k.val; omega
      | ⟨2, _⟩ => show (k.val * 128 + d.val) % 128 = d.val; omega)
  rw [eX, eW]

/-- Degree 2 of the reference: its rows 4 ≤ m < 9 of the node features against matrix 2, scaled by path weight 2. -/
theorem ref_band2 (x : SX.Idx → EReal) (w : SW.Idx → EReal) (p : SP.Idx → EReal) (n : Fin 50000) (j' : Fin 5) (d : Fin 128) :
    val_main_v23 (F := Ideal) x w p (ix3 n j' d)
      = p (ix1 (2 : Fin 4)) * ∑ k : Fin 128, x (ix3 n (⟨4 + j'.val, by have := j'.isLt; omega⟩ : Fin 16) k) * w (ix3 (2 : Fin 4) k d) := by
  have hp : val_main_v21 (F := Ideal) p (idx_main_v22 (ix3 n j' d)) = p (ix1 (2 : Fin 4)) := by
    unfold val_main_v21
    rw [shapeCast_apply (val_main_v20 (F := Ideal) p) shapeCasts_S1_S_ _ (ix1 (0 : Fin 1)) (by
      rw [Shape.rowMajor_val_one]
      have h0 := (S_.rowMajor (idx_main_v22 (ix3 n j' d))).isLt
      have e : S_.numel = 1 := by simp [Shape.numel]
      show (0 : Nat) = _
      omega), val_main_v20_apply]
    exact congrArg p (funext fun a => Fin.ext (by
      match a with
      | ⟨0, _⟩ => show 2 + 0 = 2; omega))
  rw [val_main_v23_apply, val_main_v22_apply, hp, val_main_v19_apply]
  show p _ * _ = p _ * _
  congr 1
  refine Finset.sum_congr rfl fun k _ => ?_
  rw [val_main_v16_apply, val_main_v18_apply, val_main_v17_apply]
  have eX : idx_main_v16 (lidx_main_v19 (ix3 n j' d) k) = ix3 n (⟨4 + j'.val, by have := j'.isLt; omega⟩ : Fin 16) k :=
    funext fun a => Fin.ext (by
      match a with
      | ⟨0, _⟩ => show n.val = n.val; rfl
      | ⟨1, _⟩ => show 4 + j'.val = 4 + j'.val; omega
      | ⟨2, _⟩ => show k.val = k.val; rfl)
  have eW : idx_main_v17 (idx_main_v18 (ridx_main_v19 (ix3 n j' d) k)) = ix3 (2 : Fin 4) k d :=
    funext fun a => Fin.ext (by
      have hk := k.isLt
      have hd := d.isLt
      match a with
      | ⟨0, _⟩ => show 2 + 0 = 2; omega
      | ⟨1, _⟩ => show (k.val * 128 + d.val) / 128 % 128 = k.val; omega
      | ⟨2, _⟩ => show (k.val * 128 + d.val) % 128 = d.val; omega)
  rw [eX, eW]

/-- Degree 3 of the reference: its rows 9 ≤ m < 16 of the node features against matrix 3, scaled by path weight 3. -/
theorem ref_band3 (x : SX.Idx → EReal) (w : SW.Idx → EReal) (p : SP.Idx → EReal) (n : Fin 50000) (j' : Fin 7) (d : Fin 128) :
    val_main_v31 (F := Ideal) x w p (ix3 n j' d)
      = p (ix1 (3 : Fin 4)) * ∑ k : Fin 128, x (ix3 n (⟨9 + j'.val, by have := j'.isLt; omega⟩ : Fin 16) k) * w (ix3 (3 : Fin 4) k d) := by
  have hp : val_main_v29 (F := Ideal) p (idx_main_v30 (ix3 n j' d)) = p (ix1 (3 : Fin 4)) := by
    unfold val_main_v29
    rw [shapeCast_apply (val_main_v28 (F := Ideal) p) shapeCasts_S1_S_ _ (ix1 (0 : Fin 1)) (by
      rw [Shape.rowMajor_val_one]
      have h0 := (S_.rowMajor (idx_main_v30 (ix3 n j' d))).isLt
      have e : S_.numel = 1 := by simp [Shape.numel]
      show (0 : Nat) = _
      omega), val_main_v28_apply]
    exact congrArg p (funext fun a => Fin.ext (by
      match a with
      | ⟨0, _⟩ => show 3 + 0 = 3; omega))
  rw [val_main_v31_apply, val_main_v30_apply, hp, val_main_v27_apply]
  show p _ * _ = p _ * _
  congr 1
  refine Finset.sum_congr rfl fun k _ => ?_
  rw [val_main_v24_apply, val_main_v26_apply, val_main_v25_apply]
  have eX : idx_main_v24 (lidx_main_v27 (ix3 n j' d) k) = ix3 n (⟨9 + j'.val, by have := j'.isLt; omega⟩ : Fin 16) k :=
    funext fun a => Fin.ext (by
      match a with
      | ⟨0, _⟩ => show n.val = n.val; rfl
      | ⟨1, _⟩ => show 9 + j'.val = 9 + j'.val; omega
      | ⟨2, _⟩ => show k.val = k.val; rfl)
  have eW : idx_main_v25 (idx_main_v26 (ridx_main_v27 (ix3 n j' d) k)) = ix3 (3 : Fin 4) k d :=
    funext fun a => Fin.ext (by
      have hk := k.isLt
      have hd := d.isLt
      match a with
      | ⟨0, _⟩ => show 3 + 0 = 3; omega
      | ⟨1, _⟩ => show (k.val * 128 + d.val) / 128 % 128 = k.val; omega
      | ⟨2, _⟩ => show (k.val * 128 + d.val) % 128 = d.val; omega)
  rw [eX, eW]

set_option maxHeartbeats 1000000 in
/-- The reference's result is the grouped linear map of its arguments. -/
theorem ref_eq_G (x : SX.Idx → EReal) (w : SW.Idx → EReal) (p : SP.Idx → EReal) :
    val_main_v32 (F := Ideal) x w p = G x w p := by
  funext i
  obtain ⟨n, j, d, rfl⟩ : ∃ (n : Fin 50000) (j : Fin 16) (d : Fin 128), i = ix3 n j d := ⟨i 0, i 1, i 2, eq_ix3 i⟩
  have hj := j.isLt
  rw [G_apply]
  unfold val_main_v32
  by_cases c3 : 9 ≤ j.val
  ·
    refine (concatenate_apply_piece (1 : Fin 3) _ _ (ix3 n j d) 3 (by show (_ : Nat) < 4; omega) S50000x7x128 (val_main_v31 (F := Ideal) x w p) rfl rfl 9 rfl
      (ix3 n (⟨j.val - 9, by omega⟩ : Fin 7) d)
      (fun b hb => by
        match b with
        | ⟨0, _⟩ => rfl
        | ⟨1, _⟩ => exact absurd rfl hb
        | ⟨2, _⟩ => rfl)
      (by show 9 + (j.val - 9) = j.val; omega)).trans ?_
    rw [ref_band3, degree_of_ge_nine c3]
    have ej : (⟨9 + (j.val - 9), by omega⟩ : Fin 16) = j := Fin.ext (by show 9 + (j.val - 9) = j.val; omega)
    rw [ej]
  by_cases c2 : 4 ≤ j.val
  ·
    refine (concatenate_apply_piece (1 : Fin 3) _ _ (ix3 n j d) 2 (by show (_ : Nat) < 4; omega) S50000x5x128 (val_main_v23 (F := Ideal) x w p) rfl rfl 4 rfl
      (ix3 n (⟨j.val - 4, by omega⟩ : Fin 5) d)
      (fun b hb => by
        match b with
        | ⟨0, _⟩ => rfl
        | ⟨1, _⟩ => exact absurd rfl hb
        | ⟨2, _⟩ => rfl)
      (by show 4 + (j.val - 4) = j.val; omega)).trans ?_
    rw [ref_band2, degree_of_lt_nine c2 (by omega)]
    have ej : (⟨4 + (j.val - 4), by omega⟩ : Fin 16) = j := Fin.ext (by show 4 + (j.val - 4) = j.val; omega)
    rw [ej]
  by_cases c1 : 1 ≤ j.val
  ·
    refine (concatenate_apply_piece (1 : Fin 3) _ _ (ix3 n j d) 1 (by show (_ : Nat) < 4; omega) S50000x3x128 (val_main_v15 (F := Ideal) x w p) rfl rfl 1 rfl
      (ix3 n (⟨j.val - 1, by omega⟩ : Fin 3) d)
      (fun b hb => by
        match b with
        | ⟨0, _⟩ => rfl
        | ⟨1, _⟩ => exact absurd rfl hb
        | ⟨2, _⟩ => rfl)
      (by show 1 + (j.val - 1) = j.val; omega)).trans ?_
    rw [ref_band1, degree_of_lt_four c1 (by omega)]
    have ej : (⟨1 + (j.val - 1), by omega⟩ : Fin 16) = j := Fin.ext (by show 1 + (j.val - 1) = j.val; omega)
    rw [ej]
  ·
    refine (concatenate_apply_piece (1 : Fin 3) _ _ (ix3 n j d) 0 (by show (_ : Nat) < 4; omega) S50000x1x128 (val_main_v7 (F := Ideal) x w p) rfl rfl 0 rfl
      (ix3 n (⟨j.val - 0, by omega⟩ : Fin 1) d)
      (fun b hb => by
        match b with
        | ⟨0, _⟩ => rfl
        | ⟨1, _⟩ => exact absurd rfl hb
        | ⟨2, _⟩ => rfl)
      (by show 0 + (j.val - 0) = j.val; omega)).trans ?_
    rw [ref_band0, degree_of_lt_one (by omega)]
    have ej : (⟨0 + (j.val - 0), by omega⟩ : Fin 16) = j := Fin.ext (by show 0 + (j.val - 0) = j.val; omega)
    rw [ej]

end Cert.ReferenceIdeal.RefValue

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.Finite.lean ====
/-
  The precondition, read entry by entry: when `finite_inputs` holds of the three argument arrays, every entry of each is a
  real number.

  The printed predicate is the conjunction of three tests, one per array: every entry's absolute value compares below the
  float word of +∞. On the extended reals that word is ⊤ and |a| is max a (−a), which is below ⊤ exactly when a is neither
  ⊤ nor ⊥. A conjunction of one-bit words is 1 when both are; an `all` over an array is 1 when every entry's test is.
-/
import proofs.«138451_j30597347016799_2_alg».proof.Pre_finite_inputs
import proofs.«138451_j30597347016799_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws
import proofs.«138451_j30597347016799_2_alg».proof.Proof.LibFiniteTest

noncomputable section

namespace Cert.FiniteInputs

open Cert.Pre_finite_inputs Cert.Pre_finite_inputs.Gen
open Idealize.ShloMosaic Idealize.ShloMosaic.ValueIdx Idealize.ShloMosaic.FiniteTest

/-- The scalar shape has one index. -/
instance : Subsingleton S_.Idx := subsingleton_scalarIdx

/-- The precondition gives: every entry of the node features, of the weights and of the path weights is a real number. -/
theorem reals_of_pre (x : FVec Ideal S50000x16x128 .f32) (w : FVec Ideal S4x128x128 .f32) (p : FVec Ideal S4 .f32)
    (h : fn (F := Ideal) x w p = fun _ => 1#1) :
    (∀ i, ∃ r : ℝ, x i = r) ∧ (∀ i, ∃ r : ℝ, w i = r) ∧ (∀ i, ∃ r : ℝ, p i = r) := by
  have h0 := congrFun h ix0
  dsimp only [fn] at h0
  obtain ⟨h01, hp⟩ := IntOp.andi_eq_one.mp h0
  obtain ⟨hx, hw⟩ := IntOp.andi_eq_one.mp h01
  exact ⟨fun i => real_of_test x _ i (Host.reduce_andi_all _ _ _ _ ix0 hx i),
    fun i => real_of_test w _ i (Host.reduce_andi_all _ _ _ _ ix0 hw i),
    fun i => real_of_test p _ i (Host.reduce_andi_all _ _ _ _ ix0 hp i)⟩

end Cert.FiniteInputs

end
-- ==== Proof.lean ====
/-
  A grouped linear map over spherical-harmonic features: the Pallas kernel against its jnp reference, as extended reals.

  x is 50000 nodes × 16 components × 128 channels; the 16 components fall into degrees l = 0, 1, 2, 3 (rows [0,1), [1,4),
  [4,9), [9,16)); w holds one 128 × 128 matrix per degree and p one path weight per degree. Both programs compute
      G x w p (n, m, d) = p l · Σ_{k < 128} x (n, m, k) · w (l, k, d),   l = degree m.
  The reference does exactly this, degree by degree, and lays the four results side by side. The kernel first scales each
  matrix by its path weight on the host, s (l, k, d) = w (l, k, d) · p l, then for each of 49 blocks of 1024 nodes multiplies
  each degree's rows by its scaled matrix on the matrix unit; the last block overhangs the array and is cut at its end. So
  the kernel's result is Σ_k x (n, m, k) · (w (l, k, d) · p l). The two agree by distributivity in ℝ — the factor p l moves out
  of the finite sum — which is where the precondition is used: every entry of x, w and p is finite, hence a real number. On
  the extended reals the identity fails without it (an infinite entry against a zero one).

  The three frames: the kernel as printed and its idealization run to the end, fault nowhere and leave x, w and p as they
  were (the kernel writes only its result and the scaled-weight array); the reference is host operations only. The ideal
  pass rewrote nothing in the kernel, so the idealization is the kernel's own text read on the extended reals.
-/
import proofs.«138451_j30597347016799_2_alg».proof.Defs
import proofs.«138451_j30597347016799_2_alg».proof.Proof.Gen.Kernel
import proofs.«138451_j30597347016799_2_alg».proof.Proof.Gen.Kernel.Skeleton
import proofs.«138451_j30597347016799_2_alg».proof.Proof.Gen.Kernel.Launch
import proofs.«138451_j30597347016799_2_alg».proof.Proof.Gen.Kernel.Points
import proofs.«138451_j30597347016799_2_alg».proof.Proof.Gen.Kernel.Frame
import proofs.«138451_j30597347016799_2_alg».proof.Proof.Gen.KernelIdeal
import proofs.«138451_j30597347016799_2_alg».proof.Proof.Gen.KernelIdeal.Skeleton
import proofs.«138451_j30597347016799_2_alg».proof.Proof.Gen.KernelIdeal.Launch
import proofs.«138451_j30597347016799_2_alg».proof.Proof.Gen.KernelIdeal.Points
import proofs.«138451_j30597347016799_2_alg».proof.Proof.Gen.KernelIdeal.Frame
import proofs.«138451_j30597347016799_2_alg».proof.Proof.Gen.ReferenceIdeal
import proofs.«138451_j30597347016799_2_alg».proof.Proof.Gen.Pre_finite_inputs
import proofs.«138451_j30597347016799_2_alg».proof.Proof.Gen.ReferenceIdeal.Run
import proofs.«138451_j30597347016799_2_alg».proof.Proof.Gen.ReferenceIdeal.Read
import proofs.«138451_j30597347016799_2_alg».proof.Proof.FrameKernel
import proofs.«138451_j30597347016799_2_alg».proof.Proof.RunIdeal
import proofs.«138451_j30597347016799_2_alg».proof.Proof.RefValue
import proofs.«138451_j30597347016799_2_alg».proof.Proof.Finite
import Idealize.ShloMosaic.Adequacy
import Idealize.ShloMosaic.Init

set_option maxRecDepth 16384

noncomputable section

open scoped BigOperators

namespace Cert.Proof

open Idealize.ShloMosaic Idealize.ShloMosaic.TcCoe Idealize.SL.Sem Idealize.ShloMosaic.ValueIdx
open Cert.GroupedLinear

/-! ## The frames -/

theorem frame_k : Cert.frame_Kernel := fun m ρ _ => Cert.Kernel.FrameRel.frame (F := Bits) m ρ
theorem frame_ki : Cert.frame_KernelIdeal := fun m ρ _ => Cert.KernelIdeal.RunIdeal.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no ledger entry to restate. -/
theorem preserves : Cert.preserves_Kernel_KernelIdeal := trivial

/-! ## The kernel's result is the grouped linear map -/

/-- With every input entry a real number, the result array the idealized kernel ends with — the mix with the matrices scaled
    first — is `G` of the three argument arrays: the path weight moves out of the sum over the channels. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.RunIdeal.dats m 0 c).arrAt 2 Cert.KernelIdeal.cfg0.N
      = G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨hx, hw, hp⟩ := Cert.FiniteInputs.reals_of_pre _ _ _ (hpre c)
  rw [Cert.KernelIdeal.RunIdeal.final]
  funext i
  obtain ⟨n, j, d, rfl⟩ : ∃ (n : Fin 50000) (j : Fin 16) (d : Fin 128), i = ix3 n j d := ⟨i 0, i 1, i 2, eq_ix3 i⟩
  rw [Cert.KernelIdeal.RunIdeal.mixScaled_apply, ← scaledFirst_eq_G _ _ _ hx hw hp n j d]
  refine Finset.sum_congr rfl fun k _ => ?_
  rw [Cert.KernelIdeal.Gen.V_main_arg0, Cert.KernelIdeal.RunIdeal.scaled_weights]
  first
    | done
    | rfl

/-! ## The two programs end with equal results -/

/-- From memories agreeing on x, w and p, both idealized programs run, each ends with `G` of the arguments in its result
    array — the kernel by its run and `kernel_result`, the reference by its run read stage by stage — and with the
    arguments unchanged. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨((h c).1 2).trans (kernel_result m hpre c),
        ((h c).1 0).trans (((Cert.KernelIdeal.RunIdeal.dats m 0 c).arrAt_in 0 rfl _).trans
          ((Cert.KernelIdeal.RunIdeal.A_eq m c 0).trans (Cert.KernelIdeal.Gen.V_main_arg0 m c))),
        ((h c).2 Cert.KernelIdeal.main_arg1 (Pipeline.mem_restRefs_of Cert.KernelIdeal.main_arg1 (by decide) (by decide))).trans
          (Cert.KernelIdeal.Gen.V_main_arg1 m c),
        ((h c).2 Cert.KernelIdeal.main_arg2 (Pipeline.mem_restRefs_of Cert.KernelIdeal.main_arg2 (by decide) (by decide))).trans
          (Cert.KernelIdeal.Gen.V_main_arg2 m c)⟩)
      (Cert.KernelIdeal.RunIdeal.run_main m ρ)
  · refine (θ_run Cert.ReferenceIdeal.defs _ _).mono (fun r h c => ⟨?_, (h c).2⟩)
      (Cert.ReferenceIdeal.Value.run (F := Ideal) m' ρ')
    rw [(h c).1]
    refine ((Cert.ReferenceIdeal.Read.val_main_v32_eq _ _ _).trans (Cert.ReferenceIdeal.RefValue.ref_eq_G _ _ _)).trans ?_
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
